-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x16384 : Shape := ⟨2, ![1024, 16384]⟩
abbrev S70x1024 : Shape := ⟨2, ![70, 1024]⟩
abbrev S70 : Shape := ⟨1, ![70]⟩
abbrev S16384x64 : Shape := ⟨2, ![16384, 64]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S70x1024 : S_.BroadcastsInDim S70x1024 (![] : Fin 0 → Fin S70x1024.rank)
  reducesTo_S70x1024_S_d0_1 : S70x1024.ReducesTo [0, 1] S_
  bcast_S_S70 : S_.BroadcastsInDim S70 (![] : Fin 0 → Fin S70.rank)
  reducesTo_S70_S_d0 : S70.ReducesTo [0] S_
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_arg1 : FVec F S1024x16384 .f32) (main_arg4 : FVec F S16384x64 .f32) (main_v13 : IVec S_ 1) (main_v16 : IVec S70 1) : IVec S_ 1 :=
  let main_c_5 : IVec S_ 1 := constantI S_ 1 1#1
  let main_v17 : IVec S_ 1 := (fun x v => Host.reduce IntOp.andi x v reducesTo_S70_S_d0 h_S_) main_v16 main_c_5
  let main_v18 : IVec S_ 1 := andi main_v13 main_v17
  let main_v19 : FVec F S16384x64 .f32 := Host.absf main_arg4
  let main_cst_6 : FVec F S_ .f32 := constant S_ .f32 0x7F800000#32
  let main_v20 : FVec F S16384x64 .f32 := broadcastInDim S16384x64 ![] bcast_S_S16384x64 main_cst_6
  let main_v21 : IVec S16384x64 1 := cmpf .olt main_v19 main_v20
  let main_c_7 : IVec S_ 1 := constantI S_ 1 1#1
  let main_v22 : IVec S_ 1 := (fun x v => Host.reduce IntOp.andi x v reducesTo_S16384x64_S_d0_1 h_S_) main_v21 main_c_7
  let main_v23 : IVec S_ 1 := andi main_v18 main_v22
  let main_cst_8 : FVec F S_ .f32 := constant S_ .f32 0x00000000#32
  let main_v24 : FVec F S1024x16384 .f32 := broadcastInDim S1024x16384 ![] bcast_S_S1024x16384 main_cst_8
  let main_v25 : IVec S1024x16384 1 := cmpf .oge main_arg1 main_v24
  let main_c_9 : IVec S_ 1 := constantI S_ 1 1#1
  let main_v26 : IVec S_ 1 := (fun x v => Host.reduce IntOp.andi x v reducesTo_S1024x16384_S_d0_1 h_S_) main_v25 main_c_9
  let main_v27 : IVec S_ 1 := andi main_v23 main_v26
  main_v27

def fn {F : FTy → Type} [FloatOps F] (main_arg0 : FVec F S1024x1024 .f32) (main_arg1 : FVec F S1024x16384 .f32) (main_arg2 : FVec F S70x1024 .f32) (main_arg3 : FVec F S70 .f32) (main_arg4 : FVec F S16384x64 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S70x1024 .f32 := Host.absf main_arg2
  let main_cst_2 : FVec F S_ .f32 := constant S_ .f32 0x7F800000#32
  let main_v10 : FVec F S70x1024 .f32 := broadcastInDim S70x1024 ![] bcast_S_S70x1024 main_cst_2
  let main_v11 : IVec S70x1024 1 := cmpf .olt main_v9 main_v10
  let main_c_3 : IVec S_ 1 := constantI S_ 1 1#1
  let main_v12 : IVec S_ 1 := (fun x v => Host.reduce IntOp.andi x v reducesTo_S70x1024_S_d0_1 h_S_) main_v11 main_c_3
  let main_v13 : IVec S_ 1 := andi main_v8 main_v12
  let main_v14 : FVec F S70 .f32 := Host.absf main_arg3
  let main_cst_4 : FVec F S_ .f32 := constant S_ .f32 0x7F800000#32
  let main_v15 : FVec F S70 .f32 := broadcastInDim S70 ![] bcast_S_S70 main_cst_4
  let main_v16 : IVec S70 1 := cmpf .olt main_v14 main_v15
  fn_part1 (F := F) main_arg1 main_arg4 main_v13 main_v16
-- ==== Kernel.lean ====
abbrev S1024x1024 : Shape := ⟨2, ![1024, 1024]⟩
abbrev S1024x16384 : Shape := ⟨2, ![1024, 16384]⟩
abbrev S70x1024 : Shape := ⟨2, ![70, 1024]⟩
abbrev S70 : Shape := ⟨1, ![70]⟩
abbrev S16384x64 : Shape := ⟨2, ![16384, 64]⟩
abbrev S_ : Shape := ⟨0, ![]⟩
abbrev S128x1024 : Shape := ⟨2, ![128, 1024]⟩
abbrev S1 : Shape := ⟨1, ![1]⟩
abbrev S1x128 : Shape := ⟨2, ![1, 128]⟩
abbrev S2 : Shape := ⟨1, ![2]⟩
abbrev S1024x64 : Shape := ⟨2, ![1024, 64]⟩
abbrev S64x1024 : Shape := ⟨2, ![64, 1024]⟩
abbrev S64x16384 : Shape := ⟨2, ![64, 16384]⟩
abbrev S64x64 : Shape := ⟨2, ![64, 64]⟩
abbrev S16384 : Shape := ⟨1, ![16384]⟩
abbrev S16384x1 : Shape := ⟨2, ![16384, 1]⟩
abbrev S64x128 : Shape := ⟨2, ![64, 128]⟩
abbrev S64x1 : Shape := ⟨2, ![64, 1]⟩
abbrev S64x3 : Shape := ⟨2, ![64, 3]⟩
abbrev S64 : Shape := ⟨1, ![64]⟩

abbrev nBuf : Space → Nat
  | .hbm => 20
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x16384, .f32⟩
  | .hbm, ⟨2, _⟩ => ⟨S70x1024, .f32⟩
  | .hbm, ⟨3, _⟩ => ⟨S70, .f32⟩
  | .hbm, ⟨4, _⟩ => ⟨S16384x64, .f32⟩
  | .hbm, ⟨5, _⟩ => ⟨S_, .f32⟩
  | .hbm, ⟨6, _⟩ => ⟨S128x1024, .f32⟩
  | .hbm, ⟨7, _⟩ => ⟨S_, .i32⟩
  | .hbm, ⟨8, _⟩ => ⟨S1, .i32⟩
  | .hbm, ⟨9, _⟩ => ⟨S128x1024, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S1x128, .f32⟩
  | .hbm, ⟨18, _⟩ => ⟨S1024x64, .f32⟩
  | .hbm, ⟨19, _⟩ => ⟨S1024x16384, .f32⟩
  | .local _ .vmem, ⟨0, _⟩ => ⟨S64x1024, .f32⟩
  | .local _ .vmem, ⟨1, _⟩ => ⟨S64x1024, .f32⟩
  | .local _ .vmem, ⟨2, _⟩ => ⟨S64x16384, .f32⟩
  | .local _ .vmem, ⟨3, _⟩ => ⟨S64x16384, .f32⟩
  | .local _ .vmem, ⟨4, _⟩ => ⟨S128x1024, .f32⟩
  | .local _ .vmem, ⟨5, _⟩ => ⟨S1x128, .f32⟩
  | .local _ .vmem, ⟨6, _⟩ => ⟨S16384x64, .f32⟩
  | .local _ .vmem, ⟨7, _⟩ => ⟨S64x64, .f32⟩
  | .local _ .vmem, ⟨8, _⟩ => ⟨S64x64, .f32⟩
  | .local _ .vmem, ⟨9, _⟩ => ⟨S64x16384, .f32⟩
  | .local _ .vmem, ⟨10, _⟩ => ⟨S64x16384, .f32⟩
  | .local _ .vmem, ⟨11, _⟩ => ⟨S16384x64, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_cst_0 : Ref sig .tc := ⟨.hbm, 10, rfl⟩
abbrev main_call0_v3 : Ref sig .tc := ⟨.hbm, 11, rfl⟩
abbrev main_call0_c_1 : Ref sig .tc := ⟨.hbm, 12, rfl⟩
abbrev main_call0_v4 : Ref sig .tc := ⟨.hbm, 13, rfl⟩
abbrev main_call0_c_2 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16384x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S128x1024 : S_.BroadcastsInDim S128x1024 (![] : Fin 0 → Fin S128x1024.rank)
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  inb_S64x1024_S64x1024_0_0 : ∀ a, (![0, 0] : Fin 2 → Nat) a + S64x1024.size a ≤ S64x1024.size a
  h_S64x1024 : 0 < S64x1024.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S16384x64_S16384x64_0_0 : ∀ a, (![0, 0] : Fin 2 → Nat) a + S16384x64.size a ≤ S16384x64.size a
  h_S16384x64 : 0 < S16384x64.numel
  reduces_S16384x64_S16384 : S16384x64.Reduces [1] S16384
  shapeCasts_S16384_S16384x1 : S16384.ShapeCasts S16384x1
  broadcasts_S16384x1_S16384x64 : S16384x1.Broadcasts S16384x64
  shapeCasts_S16384x64_S16384x64 : S16384x64.ShapeCasts S16384x64
  broadcasts_S1x128_S64x128 : S1x128.Broadcasts S64x128
  slices_S64x128_o0_0_S64x64 : S64x128.Slices ![0, 0] S64x64
  slices_S64x128_o0_64_S64x1 : S64x128.Slices ![0, 64] S64x1
  slices_S64x128_o0_65_S64x1 : S64x128.Slices ![0, 65] S64x1
  slices_S64x128_o0_66_S64x3 : S64x128.Slices ![0, 66] S64x3
  reduces_S64x3_S64 : S64x3.Reduces [1] S64
  shapeCasts_S64_S64x1 : S64.ShapeCasts S64x1
  broadcasts_S64x1_S64x3 : S64x1.Broadcasts S64x3
  slices_S64x128_o0_69_S64x1 : S64x128.Slices ![0, 69] S64x1
  reduces_S64x64_S64 : S64x64.Reduces [1] S64
  broadcasts_S64x1_S64x64 : S64x1.Broadcasts S64x64
  broadcasts_S64x1_S64x16384 : S64x1.Broadcasts S64x16384
  reduces_S64x16384_S64 : S64x16384.Reduces [1] S64
  inb_S64x16384_S64x16384_0_0 : ∀ a, (![0, 0] : Fin 2 → Nat) a + S64x16384.size a ≤ S64x16384.size a
  h_S64x16384 : 0 < S64x16384.numel
  slices_S64x3_o0_0_S64x1 : S64x3.Slices ![0, 0] S64x1
  rotates_S64x16384_d1 : S64x16384.Rotates 1 none
  slices_S64x3_o0_1_S64x1 : S64x3.Slices ![0, 1] S64x1
  slices_S64x3_o0_2_S64x1 : S64x3.Slices ![0, 2] S64x1
  inb_S64x64_S64x64_0_0 : ∀ a, (![0, 0] : Fin 2 → Nat) a + S64x64.size a ≤ S64x64.size a
  h_S64x64 : 0 < S64x64.numel
  scatter_S128x1024_S1_S70x1024_01_n_0_0_wf : ScatterDims.WF S128x1024 S1 S70x1024 [0, 1] [] [0] 0
  scatter_S1x128_S2_S70_0_0_01_0_wf : ScatterDims.WF S1x128 S2 S70 [0] [0] [0, 1] 0
  dot_S64x1024_S128x1024_S64x128_1_1_0_0_n_n_wf : DotDims.WF S64x1024 S128x1024 S64x128 [1] [1] [0] [0] [] []
  dot_S64x64_S16384x64_S64x16384_1_1_0_0_n_n_wf : DotDims.WF S64x64 S16384x64 S64x16384 [1] [1] [0] [0] [] []
  dot_S64x16384_S16384x64_S64x64_1_0_0_1_n_n_wf : DotDims.WF S64x16384 S16384x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S1024x1024.size a
  hwx0_0 : ∀ i : grid0.Coords, EltTy.bits .f32 = 32 ∨ (Rect.block (s := S1024x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16384.size a ≤ S1024x16384.size a
  hwx0_1 : ∀ i : grid0.Coords, EltTy.bits .f32 = 32 ∨ (Rect.block (s := S1024x16384) S64x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x1024.size a
  hwx0_2 : ∀ i : grid0.Coords, EltTy.bits .f32 = 32 ∨ (Rect.block (s := S128x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16384x64.size a ≤ S16384x64.size a
  hwx0_4 : ∀ i : grid0.Coords, EltTy.bits .f32 = 32 ∨ (Rect.block (s := S16384x64) S16384x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S1024x64.size a
  hwx0_5 : ∀ i : grid0.Coords, EltTy.bits .f32 = 32 ∨ (Rect.block (s := S1024x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x16384.size a ≤ S1024x16384.size a
  hwx0_6 : ∀ i : grid0.Coords, EltTy.bits .f32 = 32 ∨ (Rect.block (s := S1024x16384) S64x16384.size (cc0_transform_6 i) (hinb0_6 i)).WholeWords (EltTy.packing .f32)

variable [Facts₀]

def scatter_S128x1024_S1_S70x1024_01_n_0_0 : ScatterDims S128x1024 S1 S70x1024 where
  updateWindowDims := [0, 1]
  insertedWindowDims := []
  scatterDimsToOperandDims := [0]
  indexVectorDim := 0
  wf := scatter_S128x1024_S1_S70x1024_01_n_0_0_wf
def scatter_S1x128_S2_S70_0_0_01_0 : ScatterDims S1x128 S2 S70 where
  updateWindowDims := [0]
  insertedWindowDims := [0]
  scatterDimsToOperandDims := [0, 1]
  indexVectorDim := 0
  wf := scatter_S1x128_S2_S70_0_0_01_0_wf
def dot_S64x1024_S128x1024_S64x128_1_1_0_0_n_n : DotDims S64x1024 S128x1024 S64x128 where
  lhsContracting := [1]
  rhsContracting := [1]
  lhsNonContracting := [0]
  rhsNonContracting := [0]
  lhsBatch := []
  rhsBatch := []
  wf := dot_S64x1024_S128x1024_S64x128_1_1_0_0_n_n_wf
def dot_S64x64_S16384x64_S64x16384_1_1_0_0_n_n : DotDims S64x64 S16384x64 S64x16384 where
  lhsContracting := [1]
  rhsContracting := [1]
  lhsNonContracting := [0]
  rhsNonContracting := [0]
  lhsBatch := []
  rhsBatch := []
  wf := dot_S64x64_S16384x64_S64x16384_1_1_0_0_n_n_wf
def dot_S64x16384_S16384x64_S64x64_1_0_0_1_n_n : DotDims S64x16384 S16384x64 S64x64 where
  lhsContracting := [1]
  rhsContracting := [0]
  lhsNonContracting := [0]
  rhsNonContracting := [1]
  lhsBatch := []
  rhsBatch := []
  wf := dot_S64x16384_S16384x64_S64x64_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S128x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16384x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S64x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S64x16384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x16384 : Shape := ⟨2, ![1024, 16384]⟩
abbrev S70x1024 : Shape := ⟨2, ![70, 1024]⟩
abbrev S70 : Shape := ⟨1, ![70]⟩
abbrev S16384x64 : Shape := ⟨2, ![16384, 64]⟩
abbrev S1024x70 : Shape := ⟨2, ![1024, 70]⟩
abbrev S1x70 : Shape := ⟨2, ![1, 70]⟩
abbrev S1024x64 : Shape := ⟨2, ![1024, 64]⟩
abbrev S1024x1 : Shape := ⟨2, ![1024, 1]⟩
abbrev S1024x3 : Shape := ⟨2, ![1024, 3]⟩
abbrev S_ : Shape := ⟨0, ![]⟩
abbrev S1024 : Shape := ⟨1, ![1024]⟩
abbrev S16384 : Shape := ⟨1, ![16384]⟩
abbrev S16384x1 : Shape := ⟨2, ![16384, 1]⟩
abbrev S64x16384 : Shape := ⟨2, ![64, 16384]⟩
abbrev S1024x16383 : Shape := ⟨2, ![1024, 16383]⟩

abbrev nBuf : Space → Nat
  | .hbm => 145
  | .vmem => 0
  | .smem => 0
  | _ => 0

abbrev hbmTy0_0 (i : Nat) : BufTy := match i % 128 with
  | 0 => ⟨S1024x1024, .f32⟩
  | 1 => ⟨S1024x16384, .f32⟩
  | 2 => ⟨S70x1024, .f32⟩
  | 3 => ⟨S70, .f32⟩
  | 4 => ⟨S16384x64, .f32⟩
  | 5 => ⟨S1024x70, .f32⟩
  | 6 => ⟨S1024x70, .f32⟩
  | 7 => ⟨S1x70, .f32⟩
  | 8 => ⟨S1024x70, .f32⟩
  | 9 => ⟨S1024x70, .f32⟩
  | 10 => ⟨S1024x64, .f32⟩
  | 11 => ⟨S1024x1, .f32⟩
  | 12 => ⟨S1024x1, .f32⟩
  | 13 => ⟨S1024x3, .f32⟩
  | 14 => ⟨S1024x1, .f32⟩
  | 15 => ⟨S_, .f32⟩
  | 16 => ⟨S1024x1, .f32⟩
  | 17 => ⟨S1024x1, .f32⟩
  | 18 => ⟨S1024x1, .f32⟩
  | 19 => ⟨S1024x1, .f32⟩
  | 20 => ⟨S1024x1, .i1⟩
  | 21 => ⟨S1024x1, .f32⟩
  | 22 => ⟨S1024x1, .f32⟩
  | 23 => ⟨S1024x1, .f32⟩
  | 24 => ⟨S1024x1, .f32⟩
  | 25 => ⟨S1024x1, .f32⟩
  | 26 => ⟨S1024x1, .f32⟩
  | 27 => ⟨S1024x1, .f32⟩
  | 28 => ⟨S1024x1, .f32⟩
  | 29 => ⟨S1024x1, .f32⟩
  | 30 => ⟨S1024x1, .f32⟩
  | 31 => ⟨S_, .f32⟩
  | 32 => ⟨S1024x1, .f32⟩
  | 33 => ⟨S1024x1, .f32⟩
  | 34 => ⟨S_, .f32⟩
  | 35 => ⟨S1024x1, .f32⟩
  | 36 => ⟨S1024x1, .f32⟩
  | 37 => ⟨S_, .f32⟩
  | 38 => ⟨S1024, .f32⟩
  | 39 => ⟨S_, .f32⟩
  | 40 => ⟨S1024, .f32⟩
  | 41 => ⟨S1024, .f32⟩
  | 42 => ⟨S1024x1, .f32⟩
  | 43 => ⟨S1024x3, .f32⟩
  | 44 => ⟨S1024x3, .f32⟩
  | 45 => ⟨S1024x3, .f32⟩
  | 46 => ⟨S_, .f32⟩
  | 47 => ⟨S1024, .f32⟩
  | 48 => ⟨S1024x1, .f32⟩
  | 49 => ⟨S1024x3, .f32⟩
  | 50 => ⟨S1024x3, .f32⟩
  | 51 => ⟨S_, .f32⟩
  | 52 => ⟨S1024x1, .f32⟩
  | 53 => ⟨S1024x1, .f32⟩
  | 54 => ⟨S1024x1, .f32⟩
  | 55 => ⟨S1024x1, .f32⟩
  | 56 => ⟨S1024x1, .i1⟩
  | 57 => ⟨S1024x1, .f32⟩
  | 58 => ⟨S1024x1, .f32⟩
  | 59 => ⟨S1024x1, .f32⟩
  | 60 => ⟨S1024x1, .f32⟩
  | 61 => ⟨S1024x1, .f32⟩
  | 62 => ⟨S1024x1, .f32⟩
  | 63 => ⟨S1024x1, .f32⟩
  | 64 => ⟨S1024x1, .f32⟩
  | 65 => ⟨S_, .f32⟩
  | 66 => ⟨S1024x1, .f32⟩
  | 67 => ⟨S1024x1, .f32⟩
  | 68 => ⟨S1024x64, .f32⟩
  | 69 => ⟨S_, .f32⟩
  | 70 => ⟨S1024, .f32⟩
  | 71 => ⟨S1024x1, .f32⟩
  | 72 => ⟨S1024x1, .f32⟩
  | 73 => ⟨S_, .f32⟩
  | 74 => ⟨S1024x1, .f32⟩
  | 75 => ⟨S1024x1, .f32⟩
  | 76 => ⟨S1024x64, .f32⟩
  | 77 => ⟨S1024x64, .f32⟩
  | 78 => ⟨S16384x64, .f32⟩
  | 79 => ⟨S_, .f32⟩
  | 80 => ⟨S16384, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S16384x64, .f32⟩
  | 87 => ⟨S16384x64, .f32⟩
  | 88 => ⟨S64x16384, .f32⟩
  | 89 => ⟨S1024x16384, .f32⟩
  | 90 => ⟨S1024x16384, .f32⟩
  | 91 => ⟨S1024x16384, .f32⟩
  | 92 => ⟨S_, .f32⟩
  | 93 => ⟨S1024, .f32⟩
  | 94 => ⟨S_, .f32⟩
  | 95 => ⟨S1024, .f32⟩
  | 96 => ⟨S1024, .f32⟩
  | 97 => ⟨S1024x1, .f32⟩
  | 98 => ⟨S1024x16384, .f32⟩
  | 99 => ⟨S1024x16384, .f32⟩
  | 100 => ⟨S1024x16384, .f32⟩
  | 101 => ⟨S_, .f32⟩
  | 102 => ⟨S1024, .f32⟩
  | 103 => ⟨S1024x1, .f32⟩
  | 104 => ⟨S1024x16384, .f32⟩
  | 105 => ⟨S1024x16384, .f32⟩
  | 106 => ⟨S1024x16384, .f32⟩
  | 107 => ⟨S1024x16384, .f32⟩
  | 108 => ⟨S_, .f32⟩
  | 109 => ⟨S1024x1, .f32⟩
  | 110 => ⟨S1024x1, .f32⟩
  | 111 => ⟨S1024x16384, .f32⟩
  | 112 => ⟨S1024x16384, .f32⟩
  | 113 => ⟨S1024x16384, .f32⟩
  | 114 => ⟨S1024x1, .f32⟩
  | 115 => ⟨S1024x16383, .f32⟩
  | 116 => ⟨S1024x1, .f32⟩
  | 117 => ⟨S1024x16384, .f32⟩
  | 118 => ⟨S1024x16384, .f32⟩
  | 119 => ⟨S1024x16384, .f32⟩
  | 120 => ⟨S1024x1, .f32⟩
  | 121 => ⟨S1024x16384, .f32⟩
  | 122 => ⟨S1024x16384, .f32⟩
  | 123 => ⟨S1024x16384, .f32⟩
  | 124 => ⟨S1024x1, .f32⟩
  | 125 => ⟨S1024x1, .f32⟩
  | 126 => ⟨S1024x16383, .f32⟩
  | 127 => ⟨S1024x16384, .f32⟩
  | _ => ⟨S1024x1024, .f32⟩

abbrev hbmTy0_1 (i : Nat) : BufTy := match i % 128 with
  | 0 => ⟨S1024x16384, .f32⟩
  | 1 => ⟨S1024x16384, .f32⟩
  | 2 => ⟨S1024x16384, .f32⟩
  | 3 => ⟨S_, .f32⟩
  | 4 => ⟨S1024x16384, .f32⟩
  | 5 => ⟨S1024x16384, .f32⟩
  | 6 => ⟨S1024x16384, .f32⟩
  | 7 => ⟨S1024x16384, .f32⟩
  | 8 => ⟨S_, .f32⟩
  | 9 => ⟨S1024, .f32⟩
  | 10 => ⟨S1024x1, .f32⟩
  | 11 => ⟨S_, .f32⟩
  | 12 => ⟨S1024x1, .f32⟩
  | 13 => ⟨S1024x1, .f32⟩
  | 14 => ⟨S1024x16384, .f32⟩
  | 15 => ⟨S1024x16384, .f32⟩
  | 16 => ⟨S1024x64, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_v28 : Ref sig .tc := ⟨.hbm, 64, rfl⟩
abbrev main_cst_4 : Ref sig .tc := ⟨.hbm, 65, rfl⟩
abbrev main_v29 : Ref sig .tc := ⟨.hbm, 66, rfl⟩
abbrev main_v30 : Ref sig .tc := ⟨.hbm, 67, rfl⟩
abbrev main_call2_v0 : Ref sig .tc := ⟨.hbm, 68, rfl⟩
abbrev main_call2_cst : Ref sig .tc := ⟨.hbm, 69, rfl⟩
abbrev main_call2_v1 : Ref sig .tc := ⟨.hbm, 70, rfl⟩
abbrev main_call2_v2 : Ref sig .tc := ⟨.hbm, 71, rfl⟩
abbrev main_v31 : Ref sig .tc := ⟨.hbm, 72, rfl⟩
abbrev main_cst_5 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_call3_v0 : Ref sig .tc := ⟨.hbm, 78, rfl⟩
abbrev main_call3_cst : Ref sig .tc := ⟨.hbm, 79, rfl⟩
abbrev main_call3_v1 : Ref sig .tc := ⟨.hbm, 80, rfl⟩
abbrev main_call3_v2 : Ref sig .tc := ⟨.hbm, 81, rfl⟩
abbrev main_v36 : Ref sig .tc := ⟨.hbm, 82, rfl⟩
abbrev main_cst_6 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_cst_7 : Ref sig .tc := ⟨.hbm, 92, rfl⟩
abbrev main_v45 : Ref sig .tc := ⟨.hbm, 93, rfl⟩
abbrev main_cst_8 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_9 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_10 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_call4_v0 : Ref sig .tc := ⟨.hbm, 115, rfl⟩
abbrev main_call4_v1 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_call5_v0 : Ref sig .tc := ⟨.hbm, 125, rfl⟩
abbrev main_call5_v1 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_11 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_12 : Ref sig .tc := ⟨.hbm, 136, rfl⟩
abbrev main_v80 : Ref sig .tc := ⟨.hbm, 137, rfl⟩
abbrev main_v81 : Ref sig .tc := ⟨.hbm, 138, rfl⟩
abbrev main_cst_13 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩

abbrev nD : Nat := 1
abbrev τ : Topo := Topo.v7x

variable {F : FTy → Type} [FloatOps F]

class Facts₀ : Prop where
  transposes_S70x1024_S1024x70_1_0 : S70x1024.Transposes [1, 0] S1024x70
  bcast_S70_S1x70_1 : S70.BroadcastsInDim S1x70 (![1] : Fin 1 → Fin S1x70.rank)
  bcast_S1x70_S1024x70_0_1 : S1x70.BroadcastsInDim S1024x70 (![0, 1] : Fin 2 → Fin S1024x70.rank)
  slices_S1024x70_S1024x64_0_0 : S1024x70.Slices ![0, 0] S1024x64
  slices_S1024x70_S1024x1_0_64 : S1024x70.Slices ![0, 64] S1024x1
  slices_S1024x70_S1024x1_0_65 : S1024x70.Slices ![0, 65] S1024x1
  slices_S1024x70_S1024x3_0_66 : S1024x70.Slices ![0, 66] S1024x3
  slices_S1024x70_S1024x1_0_69 : S1024x70.Slices ![0, 69] S1024x1
  bcast_S_S1024x1 : S_.BroadcastsInDim S1024x1 (![] : Fin 0 → Fin S1024x1.rank)
  reducesTo_S1024x3_S1024_d1 : S1024x3.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x3_0_1 : S1024x1.BroadcastsInDim S1024x3 (![0, 1] : Fin 2 → Fin S1024x3.rank)
  reducesTo_S1024x64_S1024_d1 : S1024x64.ReducesTo [1] S1024
  bcast_S1024x1_S1024x64_0_1 : S1024x1.BroadcastsInDim S1024x64 (![0, 1] : Fin 2 → Fin S1024x64.rank)
  reducesTo_S16384x64_S16384_d1 : S16384x64.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  transposes_S16384x64_S64x16384_1_0 : S16384x64.Transposes [1, 0] S64x16384
  bcast_S1024x1_S1024x16384_0_1 : S1024x1.BroadcastsInDim S1024x16384 (![0, 1] : Fin 2 → Fin S1024x16384.rank)
  reducesTo_S1024x16384_S1024_d1 : S1024x16384.ReducesTo [1] S1024
  slices_S1024x3_S1024x1_0_0 : S1024x3.Slices ![0, 0] S1024x1
  slices_S1024x16384_S1024x16383_0_1 : S1024x16384.Slices ![0, 1] S1024x16383
  slices_S1024x16384_S1024x1_0_0 : S1024x16384.Slices ![0, 0] S1024x1
  concatenates_S1024x16383_S1024x1_S1024x16384_d1 : Shape.Concatenates [S1024x16383, S1024x1] S1024x16384 1
  slices_S1024x3_S1024x1_0_1 : S1024x3.Slices ![0, 1] S1024x1
  slices_S1024x3_S1024x1_0_2 : S1024x3.Slices ![0, 2] S1024x1
  slices_S1024x16384_S1024x1_0_16383 : S1024x16384.Slices ![0, 16383] S1024x1
  slices_S1024x16384_S1024x16383_0_0 : S1024x16384.Slices ![0, 0] S1024x16383
  concatenates_S1024x1_S1024x16383_S1024x16384_d1 : Shape.Concatenates [S1024x1, S1024x16383] S1024x16384 1
  bcast_S_S1024x16384 : S_.BroadcastsInDim S1024x16384 (![] : Fin 0 → Fin S1024x16384.rank)
  dot_S1024x1024_S1024x70_S1024x70_1_0_0_1_n_n_wf : DotDims.WF S1024x1024 S1024x70 S1024x70 [1] [0] [0] [1] [] []
  dot_S1024x64_S64x16384_S1024x16384_1_0_0_1_n_n_wf : DotDims.WF S1024x64 S64x16384 S1024x16384 [1] [0] [0] [1] [] []
  dot_S1024x16384_S16384x64_S1024x64_1_0_0_1_n_n_wf : DotDims.WF S1024x16384 S16384x64 S1024x64 [1] [0] [0] [1] [] []

variable [Facts₀]

def dot_S1024x1024_S1024x70_S1024x70_1_0_0_1_n_n : DotDims S1024x1024 S1024x70 S1024x70 where
  lhsContracting := [1]
  rhsContracting := [0]
  lhsNonContracting := [0]
  rhsNonContracting := [1]
  lhsBatch := []
  rhsBatch := []
  wf := dot_S1024x1024_S1024x70_S1024x70_1_0_0_1_n_n_wf
def dot_S1024x64_S64x16384_S1024x16384_1_0_0_1_n_n : DotDims S1024x64 S64x16384 S1024x16384 where
  lhsContracting := [1]
  rhsContracting := [0]
  lhsNonContracting := [0]
  rhsNonContracting := [1]
  lhsBatch := []
  rhsBatch := []
  wf := dot_S1024x64_S64x16384_S1024x16384_1_0_0_1_n_n_wf
def dot_S1024x16384_S16384x64_S1024x64_1_0_0_1_n_n : DotDims S1024x16384 S16384x64 S1024x64 where
  lhsContracting := [1]
  rhsContracting := [0]
  lhsNonContracting := [0]
  rhsNonContracting := [1]
  lhsBatch := []
  rhsBatch := []
  wf := dot_S1024x16384_S16384x64_S1024x64_1_0_0_1_n_n_wf

class Facts : Prop extends Facts₀ where

variable [Facts]
-- ==== Proof.KerPieces.lean ====
/-
  The kernel body as functions of its loads, and what each control case leaves behind.

  One grid point handles 64 batch rows. Its body loads the rows' controller inputs `x0`, their previous
  weightings `x1`, the (padded) weight matrix `x2` and bias `x3` and the memory `x4`, reads the normalised memory
  rows from a buffer `sc` that lives across grid points, and stores the block of new weightings (`blockW`) and the
  block of read vectors (`blockR`). At the first grid point the body first fills that buffer with the normalised
  memory rows (`k0_pay3 x4`) and reads them back; at every later point it finds them there.
-/
import proofs.«117153_g39170101739974_cont_8to1_b_292_8_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]

theorem hz : (![0, 0] : Fin 2 → Nat) = fun _ => 0 := funext fun a => by fin_cases a <;> rfl

/-- The block of new weightings of one grid point, from the point's loads and the normalised memory rows `sc`. -/
def blockW (x0 : Vec F S64x1024 .f32) (x1 : Vec F S64x16384 .f32) (x2 : Vec F S128x1024 .f32) (x3 : Vec F S1x128 .f32)
    (sc : Vec F S16384x64 .f32) : FVec F S64x16384 .f32 :=
  k0_pay1 (k0_pay8 x0 x2 x3) (k0_pay9 (k0_pay4 x0 x2 x3))
    (k0_pay10 (k0_pay5 x0 x2 x3) (k0_pay6 x0 x2 x3) (k0_pay7 x0 x2 x3) sc x1)
    (k0_pay11 (k0_pay5 x0 x2 x3) (k0_pay6 x0 x2 x3) (k0_pay7 x0 x2 x3) (k0_pay8 x0 x2 x3) sc x1)
    (k0_pay12 (k0_pay8 x0 x2 x3))

/-- The block of read vectors of one grid point: the new weightings times the memory. -/
def blockR (x0 : Vec F S64x1024 .f32) (x1 : Vec F S64x16384 .f32) (x2 : Vec F S128x1024 .f32) (x3 : Vec F S1x128 .f32)
    (x4 : Vec F S16384x64 .f32) (sc : Vec F S16384x64 .f32) : FVec F S64x64 .f32 :=
  k0_pay2 x4 (k0_pay8 x0 x2 x3) (k0_pay9 (k0_pay4 x0 x2 x3))
    (k0_pay10 (k0_pay5 x0 x2 x3) (k0_pay6 x0 x2 x3) (k0_pay7 x0 x2 x3) sc x1)
    (k0_pay11 (k0_pay5 x0 x2 x3) (k0_pay6 x0 x2 x3) (k0_pay7 x0 x2 x3) (k0_pay8 x0 x2 x3) sc x1)
    (k0_pay12 (k0_pay8 x0 x2 x3))

/-- First point: the carried buffer ends holding the normalised memory rows. -/
theorem scratch_A (c : Dev nD) (i : grid0.Coords) (arg1 : Memref sig .tc .vmem S64x1024 .f32) (harg1 : arg1.IsWhole) (arg2 : Memref sig .tc .vmem S64x16384 .f32) (harg2 : arg2.IsWhole) (arg3 : Memref sig .tc .vmem S128x1024 .f32) (harg3 : arg3.IsWhole) (arg4 : Memref sig .tc .vmem S1x128 .f32) (harg4 : arg4.IsWhole) (arg5 : Memref sig .tc .vmem S16384x64 .f32) (harg5 : arg5.IsWhole) (arg6 : Memref sig .tc .vmem S64x64 .f32) (harg6 : arg6.IsWhole) (arg7 : Memref sig .tc .vmem S64x16384 .f32) (harg7 : arg7.IsWhole) (arg8 : Memref sig .tc .vmem S16384x64 .f32) (harg8 : arg8.IsWhole) (hc0 : cond0_0 i) (x0 : Vec F S64x1024 .f32) (x1 : Vec F S64x16384 .f32) (x2 : Vec F S128x1024 .f32) (x3 : Vec F S1x128 .f32) (x4 : Vec F S16384x64 .f32) :
    sout0_A_0 c i arg1 harg1 arg2 harg2 arg3 harg3 arg4 harg4 arg5 harg5 arg6 harg6 arg7 harg7 arg8 harg8 hc0 x0 x1 x2 x3 x4 = k0_pay3 x4 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg5.read_unread, View.ld_unit_zero (S := S16384x64) hz]

/-- First point: the weightings' block, over the rows it has just normalised. -/
theorem outW_A (c : Dev nD) (i : grid0.Coords) (arg1 : Memref sig .tc .vmem S64x1024 .f32) (harg1 : arg1.IsWhole) (arg2 : Memref sig .tc .vmem S64x16384 .f32) (harg2 : arg2.IsWhole) (arg3 : Memref sig .tc .vmem S128x1024 .f32) (harg3 : arg3.IsWhole) (arg4 : Memref sig .tc .vmem S1x128 .f32) (harg4 : arg4.IsWhole) (arg5 : Memref sig .tc .vmem S16384x64 .f32) (harg5 : arg5.IsWhole) (arg6 : Memref sig .tc .vmem S64x64 .f32) (harg6 : arg6.IsWhole) (arg7 : Memref sig .tc .vmem S64x16384 .f32) (harg7 : arg7.IsWhole) (arg8 : Memref sig .tc .vmem S16384x64 .f32) (harg8 : arg8.IsWhole) (hc0 : cond0_0 i) (x0 : Vec F S64x1024 .f32) (x1 : Vec F S64x16384 .f32) (x2 : Vec F S128x1024 .f32) (x3 : Vec F S1x128 .f32) (x4 : Vec F S16384x64 .f32) :
    out0_A_6 c i arg1 harg1 arg2 harg2 arg3 harg3 arg4 harg4 arg5 harg5 arg6 harg6 arg7 harg7 arg8 harg8 hc0 x0 x1 x2 x3 x4 = blockW x0 x1 x2 x3 (k0_pay3 x4) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S64x1024) hz, View.ld_unit_zero (S := S64x16384) hz, View.ld_unit_zero (S := S128x1024) hz,
    View.ld_unit_zero (S := S1x128) hz, View.ld_unit_zero (S := S16384x64) hz, View.readCov_unit_zero (S := S16384x64) _ hz]
  rfl

/-- First point: the read vectors' block. -/
theorem outR_A (c : Dev nD) (i : grid0.Coords) (arg1 : Memref sig .tc .vmem S64x1024 .f32) (harg1 : arg1.IsWhole) (arg2 : Memref sig .tc .vmem S64x16384 .f32) (harg2 : arg2.IsWhole) (arg3 : Memref sig .tc .vmem S128x1024 .f32) (harg3 : arg3.IsWhole) (arg4 : Memref sig .tc .vmem S1x128 .f32) (harg4 : arg4.IsWhole) (arg5 : Memref sig .tc .vmem S16384x64 .f32) (harg5 : arg5.IsWhole) (arg6 : Memref sig .tc .vmem S64x64 .f32) (harg6 : arg6.IsWhole) (arg7 : Memref sig .tc .vmem S64x16384 .f32) (harg7 : arg7.IsWhole) (arg8 : Memref sig .tc .vmem S16384x64 .f32) (harg8 : arg8.IsWhole) (hc0 : cond0_0 i) (x0 : Vec F S64x1024 .f32) (x1 : Vec F S64x16384 .f32) (x2 : Vec F S128x1024 .f32) (x3 : Vec F S1x128 .f32) (x4 : Vec F S16384x64 .f32) :
    out0_A_5 c i arg1 harg1 arg2 harg2 arg3 harg3 arg4 harg4 arg5 harg5 arg6 harg6 arg7 harg7 arg8 harg8 hc0 x0 x1 x2 x3 x4 = blockR x0 x1 x2 x3 x4 (k0_pay3 x4) := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread,
    View.ld_unit_zero (S := S64x1024) hz, View.ld_unit_zero (S := S64x16384) hz, View.ld_unit_zero (S := S128x1024) hz,
    View.ld_unit_zero (S := S1x128) hz, View.ld_unit_zero (S := S16384x64) hz, View.readCov_unit_zero (S := S16384x64) _ hz]
  rfl

/-- A later point: the weightings' block, over the rows `xs0` it finds in the carried buffer. -/
theorem outW_B (c : Dev nD) (i : grid0.Coords) (arg1 : Memref sig .tc .vmem S64x1024 .f32) (harg1 : arg1.IsWhole) (arg2 : Memref sig .tc .vmem S64x16384 .f32) (harg2 : arg2.IsWhole) (arg3 : Memref sig .tc .vmem S128x1024 .f32) (harg3 : arg3.IsWhole) (arg4 : Memref sig .tc .vmem S1x128 .f32) (harg4 : arg4.IsWhole) (arg5 : Memref sig .tc .vmem S16384x64 .f32) (harg5 : arg5.IsWhole) (arg6 : Memref sig .tc .vmem S64x64 .f32) (harg6 : arg6.IsWhole) (arg7 : Memref sig .tc .vmem S64x16384 .f32) (harg7 : arg7.IsWhole) (arg8 : Memref sig .tc .vmem S16384x64 .f32) (harg8 : arg8.IsWhole) (hc0 : ¬cond0_0 i) (x0 : Vec F S64x1024 .f32) (x1 : Vec F S64x16384 .f32) (x2 : Vec F S128x1024 .f32) (x3 : Vec F S1x128 .f32) (x4 : Vec F S16384x64 .f32) (xs0 : Vec F S16384x64 .f32) :
    out0_B_6 c i arg1 harg1 arg2 harg2 arg3 harg3 arg4 harg4 arg5 harg5 arg6 harg6 arg7 harg7 arg8 harg8 hc0 x0 x1 x2 x3 x4 xs0 = blockW x0 x1 x2 x3 xs0 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz]
  simp only [View.readAt_eq_ld, harg1.read_unread, harg2.read_unread, harg3.read_unread, harg4.read_unread, harg5.read_unread,
    harg8.read_unread,
    View.ld_unit_zero (S := S64x1024) hz, View.ld_unit_zero (S := S64x16384) hz, View.ld_unit_zero (S := S128x1024) hz,
    View.ld_unit_zero (S := S1x128) hz, View.ld_unit_zero (S := S16384x64) hz]
  rfl

/-- A later point: the read vectors' block. -/
theorem outR_B (c : Dev nD) (i : grid0.Coords) (arg1 : Memref sig .tc .vmem S64x1024 .f32) (harg1 : arg1.IsWhole) (arg2 : Memref sig .tc .vmem S64x16384 .f32) (harg2 : arg2.IsWhole) (arg3 : Memref sig .tc .vmem S128x1024 .f32) (harg3 : arg3.IsWhole) (arg4 : Memref sig .tc .vmem S1x128 .f32) (harg4 : arg4.IsWhole) (arg5 : Memref sig .tc .vmem S16384x64 .f32) (harg5 : arg5.IsWhole) (arg6 : Memref sig .tc .vmem S64x64 .f32) (harg6 : arg6.IsWhole) (arg7 : Memref sig .tc .vmem S64x16384 .f32) (harg7 : arg7.IsWhole) (arg8 : Memref sig .tc .vmem S16384x64 .f32) (harg8 : arg8.IsWhole) (hc0 : ¬cond0_0 i) (x0 : Vec F S64x1024 .f32) (x1 : Vec F S64x16384 .f32) (x2 : Vec F S128x1024 .f32) (x3 : Vec F S1x128 .f32) (x4 : Vec F S16384x64 .f32) (xs0 : Vec F S16384x64 .f32) :
    out0_B_5 c i arg1 harg1 arg2 harg2 arg3 harg3 arg4 harg4 arg5 harg5 arg6 harg6 arg7 harg7 arg8 harg8 hc0 x0 x1 x2 x3 x4 xs0 = blockR x0 x1 x2 x3 x4 xs0 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero hz]
  simp only [View.readAt_eq_ld, harg1.read_unread, harg2.read_unread, harg3.read_unread, harg4.read_unread, harg5.read_unread,
    harg8.read_unread,
    View.ld_unit_zero (S := S64x1024) hz, View.ld_unit_zero (S := S64x16384) hz, View.ld_unit_zero (S := S128x1024) hz,
    View.ld_unit_zero (S := S1x128) hz, View.ld_unit_zero (S := S16384x64) hz]
  rfl

end Cert.KernelIdeal.KerValue

end
-- ==== Proof.KerPoints.lean ====
/-
  What the grid's points leave, point by point.

  The buffer the kernel keeps across grid points is filled once, at the first point, with the memory rows each
  divided by its norm plus ε₈, and is never written again: after every point it holds those rows (`carried`). So
  every point writes back the same two functions (`blockW`, `blockR`) of its own blocks and of those rows.
-/
import proofs.«117153_g39170101739974_cont_8to1_b_292_8_alg».proof.Proof.KerPieces

noncomputable section

open Idealize.ShloMosaic Idealize.ShloMosaic.TcCoe Idealize.SL.Sem
open Idealize.ShloMosaic.Pipeline (Dat)

namespace Cert.KernelIdeal.KerValue

open Cert.KernelIdeal Cert.KernelIdeal.Gen

variable {F : FTy → Type} [FloatOps F]
variable (m : (ℓ : Loc nD τ sig) → Buf (Elt F) ℓ)

theorem N16 : cfg0.N = 16 := N_0

/-- The first grid point. -/
abbrev p0 : Fin cfg0.N := ⟨0, lt_of_lt_of_eq (by decide : 0 < 16) N16.symm⟩

/-- The memory rows, each divided by its norm plus ε₈, as the first point computes them from its memory block. -/
def normRows (c : Dev nD) : Vec F S16384x64 .f32 := k0_pay3 (iblk m c 4 p0)

set_option maxRecDepth 65536 in
/-- After every point the carried buffer holds the normalised memory rows: the first point stores them, no later
    point stores into it. -/
theorem carried (c : Dev nD) : ∀ (n : ℕ) (hn : n < cfg0.N), (outsAt0 m c n hn).2.2 = normRows m c
  | 0, hn => by
    rw [outsAt0_A m c ⟨0, hn⟩ (Nat.zero_mod 16)]
    dsimp only
    unfold normRows
    exact scratch_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod 16)) (iblk m c 0 ⟨0, hn⟩) (iblk m c 1 ⟨0, hn⟩) (iblk m c 2 ⟨0, hn⟩) (iblk m c 3 ⟨0, hn⟩) (iblk m c 4 ⟨0, hn⟩)
  | n + 1, hn => by
    have hN : n + 1 < 16 := lt_of_lt_of_eq hn N16
    have h0 : ¬(n + 1) % 16 = 0 := by omega
    rw [outsAt0_B m c ⟨n + 1, hn⟩ h0]
    dsimp only
    unfold sout0_B_0
    exact carried c n (Nat.lt_of_succ_lt hn)

/-- What point `t` writes back to the weightings' array. -/
theorem flushedW (c : Dev nD) (t : Fin cfg0.N) :
    (dats m 0 c).flushed 6 t
      = (cfg0.win 6).cut (grid0.coords t) (blockW (iblk m c 0 t) (iblk m c 1 t) (iblk m c 2 t) (iblk m c 3 t) (normRows m c)) := by
  by_cases h0 : t.val % 16 = 0
  · rw [Value.flushed6_A m c t h0, outW_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)]
    have ht : t = p0 := Fin.ext (by have hN : t.val < 16 := lt_of_lt_of_eq t.isLt N16; show t.val = 0; omega)
    subst ht
    rfl
  · rw [Value.flushed6_B m c t h0, outW_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2.2, carried]

/-- What point `t` writes back to the read vectors' array. -/
theorem flushedR (c : Dev nD) (t : Fin cfg0.N) :
    (dats m 0 c).flushed 5 t
      = (cfg0.win 5).cut (grid0.coords t) (blockR (iblk m c 0 t) (iblk m c 1 t) (iblk m c 2 t) (iblk m c 3 t) (iblk m c 4 t) (normRows m c)) := by
  by_cases h0 : t.val % 16 = 0
  · rw [Value.flushed5_A m c t h0, outR_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t)]
    have ht : t = p0 := Fin.ext (by have hN : t.val < 16 := lt_of_lt_of_eq t.isLt N16; show t.val = 0; omega)
    subst ht
    rfl
  · rw [Value.flushed5_B m c t h0, outR_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2.2, carried]

end Cert.KernelIdeal.KerValue

end
-- ==== Proof.Spec.lean ====
/-
  A content-addressed read head with a sharpened, shifted weighting — the row formulas.

  For one batch row the controller's output row `o` (70 numbers: a key of 64 entries, a strength, a gate,
  three shift logits, a sharpening exponent) and the memory matrix give
    z j   = softplus(strength) · ⟨key/(‖key‖+ε₈), mem j/(‖mem j‖+ε₈)⟩                  (cosine similarity, scaled)
    wg j  = g · softmax(z) j + (1 - g) · wprev j                                        (interpolation with the previous weighting)
    ws j  = s₀ · wg (j+1) + s₁ · wg j + s₂ · wg (j-1)        (indices mod the row length; s = softmax of the 3 logits)
    wp j  = (ws j + ε₁₂)^γ ,   γ = 1 + softplus(exponent)
    w j   = wp j / (Σ wp + ε₁₂) ,          r d = Σ_j w j · mem j d .
  Two spellings of three steps are stated side by side: the softmax with and without the row maximum subtracted
  (and the gate multiplied before or after the division by the sum), the power as `pow` or as exp(γ·log), and
  the final quotient as a division or as a product with the reciprocal. The words are the f32 patterns both
  programs carry; everything is on the extended reals.
-/
import Idealize.ShloMosaic.PureOps.Ideal
import Idealize.ShloMosaic.PureOps.Ideal.Laws

noncomputable section

namespace Cert.ReadHead

open Idealize.ShloMosaic
open scoped BigOperators

/-- The f32 words of the two programs: 0, 1, -∞, f32(1e-8), f32(1e-12). -/
abbrev w0 : EReal := Ideal.ofBits .f32 0x00000000#32
abbrev w1 : EReal := Ideal.ofBits .f32 0x3F800000#32
abbrev wNegInf : EReal := Ideal.ofBits .f32 0xFF800000#32
abbrev wEps8 : EReal := Ideal.ofBits .f32 0x322BCC77#32
abbrev wEps12 : EReal := Ideal.ofBits .f32 0x2B8CBCCC#32

/-- softplus as max(x,0) + log(1 + exp(-|x - 0|)). -/
def softplus (x : EReal) : EReal :=
  max x w0 + Ideal.log1p (Ideal.exp (-(max (x - w0) (-(x - w0)))))

/-- the logistic function 1 / (1 + exp(-x)). -/
def sigmoid (x : EReal) : EReal := Ideal.div w1 (w1 + Ideal.exp (-x))

/-- the largest entry of a row, started from -∞ (and joined with -∞ once more, as both programs do). -/
def rowMax {n : ℕ} (z : Fin n → EReal) : EReal := max wNegInf ((Finset.univ : Finset (Fin n)).fold max wNegInf z)

/-- softmax with the row maximum subtracted. -/
def softmax {n : ℕ} (z : Fin n → EReal) (c : Fin n) : EReal :=
  Ideal.div (Ideal.exp (z c - rowMax z)) (∑ c', Ideal.exp (z c' - rowMax z))

/-- a vector divided by its Euclidean norm plus ε₈. -/
def unitVec {d : ℕ} (k : Fin d → EReal) (e : Fin d) : EReal :=
  Ideal.div (k e) (Ideal.sqrt (∑ e', k e' * k e') + wEps8)

/-- the scaled cosine similarity of the key with memory row `j`. -/
def simScaled {n d : ℕ} (kk : Fin d → EReal) (ob : EReal) (mem : Fin n → Fin d → EReal) (j : Fin n) : EReal :=
  softplus ob * ∑ e, unitVec kk e * unitVec (mem j) e

/-- the gated weighting, softmax first (maximum subtracted), then the gate. -/
def gateRef {n : ℕ} (g : EReal) (z wprev : Fin n → EReal) (j : Fin n) : EReal :=
  g * softmax z j + (w1 - g) * wprev j

/-- the gated weighting with the gate divided by the plain sum of exponentials first. -/
def gateKer {n : ℕ} (g : EReal) (z wprev : Fin n → EReal) (j : Fin n) : EReal :=
  Ideal.div g (∑ j', Ideal.exp (z j')) * Ideal.exp (z j) + (w1 - g) * wprev j

/-- the three-tap circular shift: `nxt j` is the next position, `prv j` the one before. -/
def shifted {n : ℕ} (s : Fin 3 → EReal) (wg : Fin n → EReal) (nxt prv : Fin n → Fin n) (j : Fin n) : EReal :=
  (s 0 * wg (nxt j) + s 1 * wg j) + s 2 * wg (prv j)

def sharpRef {n : ℕ} (ws : Fin n → EReal) (γ : EReal) (j : Fin n) : EReal := Ideal.pow (ws j + wEps12) γ
def sharpKer {n : ℕ} (ws : Fin n → EReal) (γ : EReal) (j : Fin n) : EReal := Ideal.exp (γ * Ideal.log (ws j + wEps12))

def normRef {n : ℕ} (wp : Fin n → EReal) (j : Fin n) : EReal := Ideal.div (wp j) ((∑ j', wp j') + wEps12)
def normKer {n : ℕ} (wp : Fin n → EReal) (j : Fin n) : EReal := wp j * Ideal.div w1 ((∑ j', wp j') + wEps12)

/-- the next and the previous position on a row of 16384, cyclically. -/
def nxt (j : Fin 16384) : Fin 16384 := ⟨(j.val + 1) % 16384, Nat.mod_lt _ (by decide)⟩
def prv (j : Fin 16384) : Fin 16384 := ⟨(j.val + 16383) % 16384, Nat.mod_lt _ (by decide)⟩

/-- The row's weighting, in the first spelling: key `kk`, strength / gate / exponent logits `ob og ogam`, shift
    logits `os`, the memory and the row's previous weighting. -/
def wRef (kk : Fin 64 → EReal) (ob og : EReal) (os : Fin 3 → EReal) (ogam : EReal)
    (mem : Fin 16384 → Fin 64 → EReal) (wprev : Fin 16384 → EReal) (j : Fin 16384) : EReal :=
  normRef (sharpRef (shifted (softmax os) (gateRef (sigmoid og) (simScaled kk ob mem) wprev) nxt prv) (w1 + softplus ogam)) j

/-- The row's weighting, in the second spelling. -/
def wKer (kk : Fin 64 → EReal) (ob og : EReal) (os : Fin 3 → EReal) (ogam : EReal)
    (mem : Fin 16384 → Fin 64 → EReal) (wprev : Fin 16384 → EReal) (j : Fin 16384) : EReal :=
  normKer (sharpKer (shifted (softmax os) (gateKer (sigmoid og) (simScaled kk ob mem) wprev) nxt prv) (w1 + softplus ogam)) j

/-- entry `c` of row `p` of the controller's affine layer. -/
def rowOut (X : Fin 1024 → Fin 1024 → EReal) (W : Fin 70 → Fin 1024 → EReal) (B : Fin 70 → EReal)
    (p : Fin 1024) (c : Fin 70) : EReal := (∑ k, X p k * W c k) + B c

/-- The weighting array, first spelling. -/
def wOut (X : Fin 1024 → Fin 1024 → EReal) (WP : Fin 1024 → Fin 16384 → EReal) (W : Fin 70 → Fin 1024 → EReal)
    (B : Fin 70 → EReal) (MEM : Fin 16384 → Fin 64 → EReal) (p : Fin 1024) (j : Fin 16384) : EReal :=
  wRef (fun d => rowOut X W B p ⟨d.val, by omega⟩) (rowOut X W B p ⟨64, by decide⟩) (rowOut X W B p ⟨65, by decide⟩)
    (fun c => rowOut X W B p ⟨66 + c.val, by omega⟩) (rowOut X W B p ⟨69, by decide⟩) MEM (WP p) j

/-- The weighting array, second spelling. -/
def wOutK (X : Fin 1024 → Fin 1024 → EReal) (WP : Fin 1024 → Fin 16384 → EReal) (W : Fin 70 → Fin 1024 → EReal)
    (B : Fin 70 → EReal) (MEM : Fin 16384 → Fin 64 → EReal) (p : Fin 1024) (j : Fin 16384) : EReal :=
  wKer (fun d => rowOut X W B p ⟨d.val, by omega⟩) (rowOut X W B p ⟨64, by decide⟩) (rowOut X W B p ⟨65, by decide⟩)
    (fun c => rowOut X W B p ⟨66 + c.val, by omega⟩) (rowOut X W B p ⟨69, by decide⟩) MEM (WP p) j

/-- The read vector: the weighting times the memory. -/
def rOut (X : Fin 1024 → Fin 1024 → EReal) (WP : Fin 1024 → Fin 16384 → EReal) (W : Fin 70 → Fin 1024 → EReal)
    (B : Fin 70 → EReal) (MEM : Fin 16384 → Fin 64 → EReal) (p : Fin 1024) (d : Fin 64) : EReal :=
  ∑ j, wOut X WP W B MEM p j * MEM j d

def rOutK (X : Fin 1024 → Fin 1024 → EReal) (WP : Fin 1024 → Fin 16384 → EReal) (W : Fin 70 → Fin 1024 → EReal)
    (B : Fin 70 → EReal) (MEM : Fin 16384 → Fin 64 → EReal) (p : Fin 1024) (d : Fin 64) : EReal :=
  ∑ j, wOutK X WP W B MEM p j * MEM j d

end Cert.ReadHead

end
-- ==== Proof.RowMath.lean ====
/-
  The row formulas' two spellings agree on real data.

  Three laws on the extended reals, each proved by lifting to the reals, where the algebra is done, and using only
  commutativity and associativity on the extended reals themselves:
    (1) for a real row z and any gate g:  g / Σ exp z · exp(z j) = g · softmax z j, the softmax taken with the row
        maximum M subtracted — exp(z j - M) = exp(z j) · exp(-M) and Σ exp(z j' - M) = (Σ exp z) · exp(-M);
    (2) for a base b = a + ε₁₂ with a ≥ 0 real and a real exponent γ:  b^γ = exp(γ · log b);
    (3) for nonnegative real powers wp:  wp j / D = wp j · (1 / D), D = Σ wp + ε₁₂ a positive real.
  What feeds them is a chain of facts of the form "is a real number" / "is a nonnegative real number": the affine
  layer of real data is real, softplus and the logistic function of a real are real (the latter in [0, 1]), a unit
  vector of a real vector is real (its denominator is a positive real), the softmax of a nonempty real row is a
  nonnegative real, and sums and products keep all this.
-/
import proofs.«117153_g39170101739974_cont_8to1_b_292_8_alg».proof.Proof.Spec

noncomputable section
namespace Cert.ReadHead
open Idealize.ShloMosaic
open scoped BigOperators

/-! ### The five words -/

theorem w0_eq : w0 = 0 := Ideal.ofBits_zero_f32

theorem w1_eq : w1 = 1 := by
  simp [Ideal.ofBits, Ideal.ieee]
  rw [← EReal.coe_mul, ← EReal.coe_one]
  congr 1
  norm_num

theorem wNegInf_eq : wNegInf = ⊥ := by simp [Ideal.ofBits, Ideal.ieee]

/-- ε₈ is a positive real number. -/
theorem wEps8_pos : ∃ e : ℝ, 0 < e ∧ wEps8 = e := by
  simp [Ideal.ofBits, Ideal.ieee]
  refine ⟨_, ?_, (EReal.coe_mul _ _).symm⟩
  positivity

/-- ε₁₂ is a positive real number. -/
theorem wEps12_pos : ∃ e : ℝ, 0 < e ∧ wEps12 = e := by
  simp [Ideal.ofBits, Ideal.ieee]
  refine ⟨_, ?_, (EReal.coe_mul _ _).symm⟩
  positivity

/-! ### Real, nonnegative real and positive real extended reals, and what keeps them so -/

/-- The extended real x is a real number. -/
def IsR (x : EReal) : Prop := ∃ r : ℝ, x = (r : EReal)
/-- The extended real x is a nonnegative real number. -/
def IsNN (x : EReal) : Prop := ∃ r : ℝ, 0 ≤ r ∧ x = (r : EReal)
/-- The extended real x is a positive real number. -/
def IsPos (x : EReal) : Prop := ∃ r : ℝ, 0 < r ∧ x = (r : EReal)

theorem isR_of_isNN {x : EReal} (h : IsNN x) : IsR x := by
  obtain ⟨r, _, e⟩ := h; exact ⟨r, e⟩
theorem isNN_of_isPos {x : EReal} (h : IsPos x) : IsNN x := by
  obtain ⟨r, hr, e⟩ := h; exact ⟨r, hr.le, e⟩
theorem isR_zero : IsR 0 := ⟨0, rfl⟩
theorem isR_one : IsR 1 := ⟨1, rfl⟩
theorem isNN_one : IsNN 1 := ⟨1, zero_le_one, rfl⟩

theorem isR_add {x y : EReal} (hx : IsR x) (hy : IsR y) : IsR (x + y) := by
  obtain ⟨a, rfl⟩ := hx; obtain ⟨b, rfl⟩ := hy; exact ⟨a + b, (EReal.coe_add a b).symm⟩
theorem isR_mul {x y : EReal} (hx : IsR x) (hy : IsR y) : IsR (x * y) := by
  obtain ⟨a, rfl⟩ := hx; obtain ⟨b, rfl⟩ := hy; exact ⟨a * b, (EReal.coe_mul a b).symm⟩
theorem isR_neg {x : EReal} (hx : IsR x) : IsR (-x) := by
  obtain ⟨a, rfl⟩ := hx; exact ⟨-a, (EReal.coe_neg a).symm⟩
theorem isR_sub {x y : EReal} (hx : IsR x) (hy : IsR y) : IsR (x - y) := by
  obtain ⟨a, rfl⟩ := hx; obtain ⟨b, rfl⟩ := hy; exact ⟨a - b, (EReal.coe_sub a b).symm⟩
theorem isR_max {x y : EReal} (hx : IsR x) (hy : IsR y) : IsR (max x y) := by
  obtain ⟨a, rfl⟩ := hx; obtain ⟨b, rfl⟩ := hy
  rcases le_total a b with h | h
  · exact ⟨b, max_eq_right (EReal.coe_le_coe_iff.mpr h)⟩
  · exact ⟨a, max_eq_left (EReal.coe_le_coe_iff.mpr h)⟩
theorem isNN_add {x y : EReal} (hx : IsNN x) (hy : IsNN y) : IsNN (x + y) := by
  obtain ⟨a, ha, rfl⟩ := hx; obtain ⟨b, hb, rfl⟩ := hy
  exact ⟨a + b, add_nonneg ha hb, (EReal.coe_add a b).symm⟩
theorem isNN_mul {x y : EReal} (hx : IsNN x) (hy : IsNN y) : IsNN (x * y) := by
  obtain ⟨a, ha, rfl⟩ := hx; obtain ⟨b, hb, rfl⟩ := hy
  exact ⟨a * b, mul_nonneg ha hb, (EReal.coe_mul a b).symm⟩
theorem isPos_exp {x : EReal} (hx : IsR x) : IsPos (Ideal.exp x) := by
  obtain ⟨a, rfl⟩ := hx; exact ⟨Real.exp a, Real.exp_pos a, Ideal.exp_coe a⟩

/-- A finite sum of real numbers, summed on the extended reals, is their real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem isR_sum {ι : Type*} [Fintype ι] (f : ι → EReal) (h : ∀ i, IsR (f i)) : IsR (∑ i, f i) := by
  choose r hr using h
  exact ⟨∑ i, r i, by rw [← coe_sum]; exact Finset.sum_congr rfl fun i _ => hr i⟩
theorem isNN_sum {ι : Type*} [Fintype ι] (f : ι → EReal) (h : ∀ i, IsNN (f i)) : IsNN (∑ i, f i) := by
  choose r hr0 hr using h
  exact ⟨∑ i, r i, Finset.sum_nonneg fun i _ => hr0 i,
    by rw [← coe_sum]; exact Finset.sum_congr rfl fun i _ => hr i⟩

/-! ### softplus and the logistic function of a real -/

/-- log(1 + exp t) of a real t is real: 1 + exp t is positive. -/
theorem isR_log1p_exp {t : EReal} (ht : IsR t) : IsR (Ideal.log1p (Ideal.exp t)) := by
  obtain ⟨b, rfl⟩ := ht
  unfold Ideal.log1p
  rw [Ideal.exp_coe, ← EReal.coe_one, ← EReal.coe_add, Ideal.log_coe,
    if_neg (not_le.mpr (by have := Real.exp_pos b; linarith))]
  exact ⟨_, rfl⟩

theorem isR_softplus {x : EReal} (hx : IsR x) : IsR (softplus x) := by
  unfold softplus
  rw [w0_eq]
  have hd : IsR (x - 0) := isR_sub hx isR_zero
  exact isR_add (isR_max hx isR_zero) (isR_log1p_exp (isR_neg (isR_max hd (isR_neg hd))))

/-- The logistic function of a real a is the real 1/(1 + exp(-a)), which lies in [0, 1]. -/
theorem sigmoid_coe (a : ℝ) : sigmoid (a : EReal) = (((1 + Real.exp (-a))⁻¹ : ℝ) : EReal) := by
  have h : sigmoid (a : EReal) = Ideal.logistic (a : EReal) := by
    unfold sigmoid Ideal.logistic; rw [w1_eq]
  rw [h, Ideal.logistic_coe]

theorem isNN_sigmoid {x : EReal} (hx : IsR x) : IsNN (sigmoid x) := by
  obtain ⟨a, rfl⟩ := hx
  rw [sigmoid_coe]
  exact ⟨_, inv_nonneg.mpr (by have := Real.exp_pos (-a); linarith), rfl⟩

theorem isNN_one_sub_sigmoid {x : EReal} (hx : IsR x) : IsNN (w1 - sigmoid x) := by
  obtain ⟨a, rfl⟩ := hx
  rw [sigmoid_coe, w1_eq, ← EReal.coe_one, ← EReal.coe_sub]
  refine ⟨_, ?_, rfl⟩
  have hp : 0 < 1 + Real.exp (-a) := by have := Real.exp_pos (-a); linarith
  have h1 : (1 + Real.exp (-a))⁻¹ ≤ 1 := by
    rw [inv_eq_one_div, div_le_one hp]; have := Real.exp_pos (-a); linarith
  linarith

/-! ### The unit vector and the scaled similarity of real data -/

theorem isR_unitVec {d : ℕ} (k : Fin d → EReal) (hk : ∀ e, IsR (k e)) (e : Fin d) : IsR (unitVec k e) := by
  choose r hr using hk
  obtain ⟨e8, he8, h8⟩ := wEps8_pos
  unfold unitVec
  have hs : (∑ e', k e' * k e') = ((∑ e', r e' * r e' : ℝ) : EReal) := by
    rw [← coe_sum]; exact Finset.sum_congr rfl fun i _ => by rw [hr i, EReal.coe_mul]
  have hnn : 0 ≤ ∑ e', r e' * r e' := Finset.sum_nonneg fun i _ => mul_self_nonneg _
  have hden : 0 < Real.sqrt (∑ e', r e' * r e') + e8 := add_pos_of_nonneg_of_pos (Real.sqrt_nonneg _) he8
  rw [hs, Ideal.sqrt_coe, if_neg (not_lt.mpr hnn), h8, ← EReal.coe_add, Ideal.div_coe (ne_of_gt hden), hr e,
    ← EReal.coe_mul]
  exact ⟨_, rfl⟩

theorem isR_simScaled {n d : ℕ} (kk : Fin d → EReal) (ob : EReal) (mem : Fin n → Fin d → EReal)
    (hk : ∀ e, IsR (kk e)) (hob : IsR ob) (hmem : ∀ j e, IsR (mem j e)) (j : Fin n) :
    IsR (simScaled kk ob mem j) := by
  unfold simScaled
  exact isR_mul (isR_softplus hob)
    (isR_sum _ fun e => isR_mul (isR_unitVec kk hk e) (isR_unitVec (mem j) (hmem j) e))

/-! ### The row maximum and the softmax of a real row -/

/-- A running maximum started from -∞ over real entries is -∞ or real. -/
theorem fold_max_bot_or {ι : Type*} (s : Finset ι) (f : ι → EReal) (hf : ∀ i, IsR (f i)) :
    s.fold max ⊥ f = ⊥ ∨ IsR (s.fold max ⊥ f) := by
  classical
  induction s using Finset.induction_on with
  | empty => left; rfl
  | insert a s ha ih =>
    right
    rw [Finset.fold_insert ha]
    rcases ih with h | h
    · rw [h, max_eq_left bot_le]; exact hf a
    · exact isR_max (hf a) h

/-- The maximum of a nonempty real row is real. -/
theorem isR_rowMax {n : ℕ} (z : Fin n → EReal) (hz : ∀ i, IsR (z i)) (c : Fin n) : IsR (rowMax z) := by
  unfold rowMax
  rw [wNegInf_eq, max_eq_right bot_le]
  rcases fold_max_bot_or Finset.univ z hz with h | h
  · exfalso
    have hle : z c ≤ Finset.univ.fold max ⊥ z :=
      (Finset.le_fold_max (z c)).mpr (Or.inr ⟨c, Finset.mem_univ c, le_rfl⟩)
    rw [h] at hle
    obtain ⟨r, hr⟩ := hz c
    rw [hr] at hle
    exact EReal.coe_ne_bot r (le_bot_iff.mp hle)
  · exact h

/-- The softmax of a real row, maximum subtracted or not, is exp(r c) / Σ exp(r c'): the factor exp(-M)
    leaves numerator and denominator. -/
theorem softmax_coe {n : ℕ} (r : Fin n → ℝ) (c : Fin n) :
    softmax (fun i => ((r i : ℝ) : EReal)) c = ((Real.exp (r c) / ∑ c', Real.exp (r c') : ℝ) : EReal) := by
  obtain ⟨m, hm⟩ := isR_rowMax (fun i => ((r i : ℝ) : EReal)) (fun i => ⟨r i, rfl⟩) c
  unfold softmax
  rw [hm]
  simp only [← EReal.coe_sub, Ideal.exp_coe]
  have hS' : 0 < ∑ i, Real.exp (r i - m) := Finset.sum_pos (fun i _ => Real.exp_pos _) ⟨c, Finset.mem_univ c⟩
  rw [coe_sum, Ideal.div_coe (ne_of_gt hS'), ← EReal.coe_mul]
  congr 1
  have h1 : ∀ i, Real.exp (r i - m) = Real.exp (r i) * Real.exp (-m) := fun i => by
    rw [sub_eq_add_neg, Real.exp_add]
  simp only [h1]
  rw [← Finset.sum_mul]
  have hS : 0 < ∑ i, Real.exp (r i) := Finset.sum_pos (fun i _ => Real.exp_pos _) ⟨c, Finset.mem_univ c⟩
  have hE : 0 < Real.exp (-m) := Real.exp_pos _
  field_simp

theorem isNN_softmax {n : ℕ} (z : Fin n → EReal) (hz : ∀ i, IsR (z i)) (c : Fin n) : IsNN (softmax z c) := by
  choose r hr using hz
  have hzr : z = fun i => ((r i : ℝ) : EReal) := funext hr
  rw [hzr, softmax_coe]
  exact ⟨_, div_nonneg (Real.exp_pos _).le (Finset.sum_nonneg fun i _ => (Real.exp_pos _).le), rfl⟩

/-! ### The three laws -/

/-- (1) The gate before or after the division: for a real row z and any gate g,
    g / Σ exp z · exp(z j) = g · softmax z j. -/
theorem gateKer_eq_gateRef {n : ℕ} (g : EReal) (z wprev : Fin n → EReal) (hz : ∀ i, IsR (z i)) (j : Fin n) :
    gateKer g z wprev j = gateRef g z wprev j := by
  choose r hr using hz
  have hzr : z = fun i => ((r i : ℝ) : EReal) := funext hr
  rw [hzr]
  unfold gateKer gateRef
  rw [softmax_coe]
  simp only [Ideal.exp_coe]
  have hS : 0 < ∑ i, Real.exp (r i) := Finset.sum_pos (fun i _ => Real.exp_pos _) ⟨j, Finset.mem_univ j⟩
  rw [coe_sum, Ideal.div_coe (ne_of_gt hS), mul_assoc, ← EReal.coe_mul]
  have hreal : 1 / (∑ i, Real.exp (r i)) * Real.exp (r j) = Real.exp (r j) / ∑ i, Real.exp (r i) := by ring
  rw [hreal]

/-- (2) The power as exp(γ · log b): for a base b = a + ε₁₂ with a ≥ 0 real and a real exponent. -/
theorem sharpKer_eq_sharpRef {n : ℕ} (ws : Fin n → EReal) (γ : EReal) (j : Fin n) (hws : IsNN (ws j)) (hγ : IsR γ) :
    sharpKer ws γ j = sharpRef ws γ j := by
  obtain ⟨a, ha, hj⟩ := hws
  obtain ⟨y, rfl⟩ := hγ
  obtain ⟨e, he, h12⟩ := wEps12_pos
  unfold sharpKer sharpRef
  have hb : 0 < a + e := by linarith
  rw [hj, h12, ← EReal.coe_add, Ideal.log_coe, if_neg (not_le.mpr hb), ← EReal.coe_mul, Ideal.exp_coe,
    Ideal.pow_coe_coe]
  congr 1
  show Real.exp (y * Real.log (a + e)) = (a + e) ^ y
  rw [Real.rpow_def_of_pos hb, mul_comm]

/-- The power of a positive real base to a real exponent is a nonnegative real. -/
theorem isNN_sharpRef {n : ℕ} (ws : Fin n → EReal) (γ : EReal) (j : Fin n) (hws : IsNN (ws j)) (hγ : IsR γ) :
    IsNN (sharpRef ws γ j) := by
  obtain ⟨a, ha, hj⟩ := hws
  obtain ⟨y, rfl⟩ := hγ
  obtain ⟨e, he, h12⟩ := wEps12_pos
  unfold sharpRef
  rw [hj, h12, ← EReal.coe_add, Ideal.pow_coe_coe]
  exact ⟨_, Real.rpow_nonneg (by linarith) y, rfl⟩

/-- (3) Division by, or multiplication with the reciprocal of, the positive real Σ wp + ε₁₂. -/
theorem normKer_eq_normRef {n : ℕ} (wp : Fin n → EReal) (hwp : ∀ i, IsNN (wp i)) (j : Fin n) :
    normKer wp j = normRef wp j := by
  obtain ⟨s, hs, hsum⟩ := isNN_sum wp hwp
  obtain ⟨e, he, h12⟩ := wEps12_pos
  unfold normKer normRef
  have hd : s + e ≠ 0 := ne_of_gt (by linarith)
  rw [hsum, h12, ← EReal.coe_add, Ideal.div_coe hd, Ideal.div_coe hd, w1_eq, one_mul]

/-! ### The row's weighting, and the arrays -/

theorem isNN_gateRef {n : ℕ} (og : EReal) (z wprev : Fin n → EReal) (hog : IsR og) (hz : ∀ i, IsR (z i))
    (hw : ∀ i, IsNN (wprev i)) (j : Fin n) : IsNN (gateRef (sigmoid og) z wprev j) := by
  unfold gateRef
  exact isNN_add (isNN_mul (isNN_sigmoid hog) (isNN_softmax z hz j))
    (isNN_mul (isNN_one_sub_sigmoid hog) (hw j))

theorem isNN_shifted {n : ℕ} (s : Fin 3 → EReal) (wg : Fin n → EReal) (nx pv : Fin n → Fin n)
    (hs : ∀ c, IsNN (s c)) (hwg : ∀ i, IsNN (wg i)) (j : Fin n) : IsNN (shifted s wg nx pv j) := by
  unfold shifted
  exact isNN_add (isNN_add (isNN_mul (hs 0) (hwg _)) (isNN_mul (hs 1) (hwg _))) (isNN_mul (hs 2) (hwg _))

/-- The two spellings of a row's weighting agree on real data with a nonnegative previous weighting: the
    similarities are real, so law (1) turns one gate into the other; the shifted gate is a nonnegative real
    and the exponent is real, so law (2) turns one power into the other; the powers are nonnegative reals,
    so law (3) turns one quotient into the other. -/
theorem wKer_eq_wRef (kk : Fin 64 → EReal) (ob og : EReal) (os : Fin 3 → EReal) (ogam : EReal)
    (mem : Fin 16384 → Fin 64 → EReal) (wprev : Fin 16384 → EReal)
    (hk : ∀ d, ∃ r : ℝ, kk d = r) (hob : ∃ r : ℝ, ob = r) (hog : ∃ r : ℝ, og = r) (hos : ∀ c, ∃ r : ℝ, os c = r)
    (hogam : ∃ r : ℝ, ogam = r) (hmem : ∀ j d, ∃ r : ℝ, mem j d = r)
    (hw : ∀ j, ∃ r : ℝ, 0 ≤ r ∧ wprev j = r) (j : Fin 16384) :
    wKer kk ob og os ogam mem wprev j = wRef kk ob og os ogam mem wprev j := by
  have hz : ∀ i, IsR (simScaled kk ob mem i) := fun i => isR_simScaled kk ob mem hk hob hmem i
  have hgate : gateKer (sigmoid og) (simScaled kk ob mem) wprev
      = gateRef (sigmoid og) (simScaled kk ob mem) wprev :=
    funext fun i => gateKer_eq_gateRef _ _ _ hz i
  have h1 : IsR w1 := by rw [w1_eq]; exact isR_one
  have hγ : IsR (w1 + softplus ogam) := isR_add h1 (isR_softplus hogam)
  have hsh : ∀ i, IsNN (shifted (softmax os) (gateRef (sigmoid og) (simScaled kk ob mem) wprev) nxt prv i) :=
    fun i => isNN_shifted _ _ _ _ (fun c => isNN_softmax os hos c)
      (fun i' => isNN_gateRef og _ wprev hog hz hw i') i
  have hsharp : sharpKer (shifted (softmax os) (gateRef (sigmoid og) (simScaled kk ob mem) wprev) nxt prv)
        (w1 + softplus ogam)
      = sharpRef (shifted (softmax os) (gateRef (sigmoid og) (simScaled kk ob mem) wprev) nxt prv)
        (w1 + softplus ogam) :=
    funext fun i => sharpKer_eq_sharpRef _ _ i (hsh i) hγ
  unfold wKer wRef
  rw [hgate, hsharp]
  exact normKer_eq_normRef _ (fun i => isNN_sharpRef _ _ i (hsh i) hγ) j

/-- An entry of the affine layer on real data is real: a finite sum of products of reals plus a real. -/
theorem rowOut_real (X : Fin 1024 → Fin 1024 → EReal) (W : Fin 70 → Fin 1024 → EReal) (B : Fin 70 → EReal)
    (hX : ∀ p k, ∃ r : ℝ, X p k = r) (hW : ∀ c k, ∃ r : ℝ, W c k = r) (hB : ∀ c, ∃ r : ℝ, B c = r)
    (p : Fin 1024) (c : Fin 70) :
    ∃ r : ℝ, rowOut X W B p c = r := by
  unfold rowOut
  exact isR_add (isR_sum _ fun k => isR_mul (hX p k) (hW c k)) (hB c)

theorem wOutK_eq_wOut (X : Fin 1024 → Fin 1024 → EReal) (WP : Fin 1024 → Fin 16384 → EReal)
    (W : Fin 70 → Fin 1024 → EReal) (B : Fin 70 → EReal) (MEM : Fin 16384 → Fin 64 → EReal)
    (hX : ∀ p k, ∃ r : ℝ, X p k = r) (hWP : ∀ p j, ∃ r : ℝ, 0 ≤ r ∧ WP p j = r) (hW : ∀ c k, ∃ r : ℝ, W c k = r)
    (hB : ∀ c, ∃ r : ℝ, B c = r) (hMEM : ∀ j d, ∃ r : ℝ, MEM j d = r) (p : Fin 1024) (j : Fin 16384) :
    wOutK X WP W B MEM p j = wOut X WP W B MEM p j := by
  unfold wOutK wOut
  exact wKer_eq_wRef _ _ _ _ _ _ _ (fun _ => rowOut_real X W B hX hW hB p _) (rowOut_real X W B hX hW hB p _)
    (rowOut_real X W B hX hW hB p _) (fun _ => rowOut_real X W B hX hW hB p _) (rowOut_real X W B hX hW hB p _)
    hMEM (hWP p) j

theorem rOutK_eq_rOut (X : Fin 1024 → Fin 1024 → EReal) (WP : Fin 1024 → Fin 16384 → EReal)
    (W : Fin 70 → Fin 1024 → EReal) (B : Fin 70 → EReal) (MEM : Fin 16384 → Fin 64 → EReal)
    (hX : ∀ p k, ∃ r : ℝ, X p k = r) (hWP : ∀ p j, ∃ r : ℝ, 0 ≤ r ∧ WP p j = r) (hW : ∀ c k, ∃ r : ℝ, W c k = r)
    (hB : ∀ c, ∃ r : ℝ, B c = r) (hMEM : ∀ j d, ∃ r : ℝ, MEM j d = r) (p : Fin 1024) (d : Fin 64) :
    rOutK X WP W B MEM p d = rOut X WP W B MEM p d := by
  unfold rOutK rOut
  exact Finset.sum_congr rfl fun j _ => by rw [wOutK_eq_wOut X WP W B MEM hX hWP hW hB hMEM p j]

end Cert.ReadHead
end
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.KerRead.lean ====
/-
  The kernel's block functions read at coordinates, on the extended reals.

  Each payload of the body is read at (p, j) — row p of the 64 rows of the block — from its operands at coordinates:
  the affine layer (a product with the padded weights' rows plus the padded bias), its slices passed through
  softplus, the logistic function and a three-way softmax, the key and the memory rows divided by their norms, the
  exponentials of the scaled similarities and their row sum, the gate, the two rotations by one position, the
  sharpening as exp(γ·log) and the final product with the reciprocal of the row sum. Put together, the block of
  weightings at (p, j) is the row formula `wKer` of the specification over the block's loads, and the block of read
  vectors at (p, d) is that weighting summed against column d of the memory.
-/
import proofs.«117153_g39170101739974_cont_8to1_b_292_8_alg».proof.Proof.KerPieces
import proofs.«117153_g39170101739974_cont_8to1_b_292_8_alg».proof.Proof.RowMath
import proofs.«117153_g39170101739974_cont_8to1_b_292_8_alg».proof.Proof.Spec
import proofs.«117153_g39170101739974_cont_8to1_b_292_8_alg».proof.Proof.LibDotT
import proofs.«117153_g39170101739974_cont_8to1_b_292_8_alg».proof.Proof.LibPlainDot
import proofs.«117153_g39170101739974_cont_8to1_b_292_8_alg».proof.Proof.LibRows
import proofs.«117153_g39170101739974_cont_8to1_b_292_8_alg».proof.Proof.LibLayout
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open Idealize.ShloMosaic Idealize.ShloMosaic.ValueIdx
open scoped BigOperators

namespace Cert.KernelIdeal.KerValue

open Cert.KernelIdeal Cert.KernelIdeal.Gen Cert.ReadHead

section Pointwise
variable {s : Shape} {φ : FTy}
theorem sqrt_at (a : FVec Ideal s φ) (i : s.Idx) : sqrt a i = Ideal.sqrt (a i) := rfl
theorem exp_at (a : FVec Ideal s φ) (i : s.Idx) : exp a i = Ideal.exp (a i) := rfl
theorem log_at (a : FVec Ideal s φ) (i : s.Idx) : log a i = Ideal.log (a i) := rfl
theorem log1p_at (a : FVec Ideal s φ) (i : s.Idx) : log1p a i = Ideal.log1p (a i) := rfl
theorem logistic_at (a : FVec Ideal s φ) (i : s.Idx) : logistic a i = Ideal.logistic (a i) := rfl
theorem absf_at (a : FVec Ideal s φ) (i : s.Idx) : absf a i = max (a i) (-(a i)) := rfl
end Pointwise

/-- Entry (p, c) of the affine layer's block: row p of the inputs against row c of the padded weights, plus the padded bias. -/
def oBlk (x0 : Vec Ideal S64x1024 .f32) (x2 : Vec Ideal S128x1024 .f32) (x3 : Vec Ideal S1x128 .f32) (p : Fin 64) (c : Fin 128) : EReal :=
  (∑ k : Fin 1024, x0 (ix2 p k) * x2 (ix2 c k)) + x3 (ix2 (0 : Fin 1) c)

theorem pay4_apply (x0 : Vec Ideal S64x1024 .f32) (x2 : Vec Ideal S128x1024 .f32) (x3 : Vec Ideal S1x128 .f32) (p : Fin 64) (c : Fin 128) :
    k0_pay4 (F := Ideal) x0 x2 x3 (ix2 p c) = oBlk x0 x2 x3 p c := by
  unfold k0_pay4 oBlk
  refine (addf_apply _ _ _).trans ?_
  refine congrArg₂ (fun a b : EReal => a + b) ?_ ?_
  · rw [shapeCast_self]
    exact Cert.LibDotT.matmulT_zero_apply dot_S64x1024_S128x1024_S64x128_1_1_0_0_n_n rfl rfl rfl rfl (fun _ _ => rfl) (fun _ _ => rfl) none x0 x2 p c
  · rw [shapeCast_self]
    exact broadcastTo_1b_ab_apply x3 _ p c

/-- The normalised memory rows at (n, d): row n's entry d over the row's norm plus ε₈. -/
theorem pay3_apply (x4 : Vec Ideal S16384x64 .f32) (n : Fin 16384) (d : Fin 64) :
    k0_pay3 (F := Ideal) x4 (ix2 n d) = unitVec (fun e => x4 (ix2 n e)) d := by
  unfold k0_pay3 unitVec
  rw [shapeCast_self]
  refine (divf_apply _ _ _).trans ?_
  refine congrArg (Ideal.div (x4 (ix2 n d))) ?_
  refine (broadcastTo_a1_ab_apply _ _ n d).trans ?_
  refine (addf_apply _ _ _).trans ?_
  refine congrArg₂ (fun a b : EReal => a + b) ?_ rfl
  refine (sqrt_at _ _).trans ?_
  refine congrArg Ideal.sqrt ?_
  refine (shapeCast_a_a1_apply _ _ n (0 : Fin 1)).trans ?_
  refine (rowSum_apply _ _ _ _ _ n).trans ?_
  rfl

/-- A slice of columns `o ..` of an [a, b] array, read at (p, q). -/
theorem slice_cols {α : Type} {a b b' : ℕ} (o : ℕ) (x : (⟨2, ![a, b]⟩ : Shape).Idx → α)
    (h : (⟨2, ![a, b]⟩ : Shape).Slices ![0, o] ⟨2, ![a, b']⟩) (p : Fin a) (q : Fin b') (hq : o + q.val < b) :
    extractStridedSlice ⟨2, ![a, b']⟩ ![0, o] x h (ix2 p q) = x (ix2 p ⟨o + q.val, hq⟩) :=
  extractStridedSlice_apply ![0, o] x h (ix2 p q) (ix2 p ⟨o + q.val, hq⟩) (fun ax => match ax with
    | ⟨0, _⟩ => (Nat.zero_add _).symm
    | ⟨1, _⟩ => rfl)

theorem cmp_one_self (x : EReal) : FloatOps.cmpf (F := Ideal) (φ := .f32) .one x x = 0#1 := by
  show Ideal.cmp .one x x = 0#1
  simp [Ideal.cmp]

/-- softplus as the kernel spells it — the comparison of a number with itself never fires, and 0 - a = -a. -/
theorem softplus_ker (x : EReal) :
    Scalar.select (FloatOps.cmpf (F := Ideal) (φ := .f32) .one (x - w0) (x - w0)) (x + w0)
      (max x w0 + Ideal.log1p (Ideal.exp (w0 - max (x - w0) (-(x - w0))))) = softplus x := by
  rw [cmp_one_self, select_zero]
  unfold softplus
  have h0 : ∀ a : EReal, w0 - a = -a := fun a => by
    show Ideal.ofBits .f32 0x00000000#32 - a = -a
    rw [Ideal.ofBits_zero_f32, zero_sub]
  rw [h0]

theorem pay5_apply (x0 : Vec Ideal S64x1024 .f32) (x2 : Vec Ideal S128x1024 .f32) (x3 : Vec Ideal S1x128 .f32) (p : Fin 64) (d : Fin 64) :
    k0_pay5 (F := Ideal) x0 x2 x3 (ix2 p d) = oBlk x0 x2 x3 p ⟨d.val, by omega⟩ := by
  unfold k0_pay5
  refine (slice_cols 0 _ _ p d (by omega)).trans ?_
  refine (pay4_apply x0 x2 x3 p _).trans ?_
  exact congrArg (oBlk x0 x2 x3 p) (Fin.ext (Nat.zero_add _))

theorem pay6_apply (x0 : Vec Ideal S64x1024 .f32) (x2 : Vec Ideal S128x1024 .f32) (x3 : Vec Ideal S1x128 .f32) (p : Fin 64) :
    k0_pay6 (F := Ideal) x0 x2 x3 (ix2 p (0 : Fin 1)) = softplus (oBlk x0 x2 x3 p ⟨64, by decide⟩) := by
  have e : extractStridedSlice S64x1 ![0, 64] (k0_pay4 (F := Ideal) x0 x2 x3) slices_S64x128_o0_64_S64x1 (ix2 p (0 : Fin 1))
      = oBlk x0 x2 x3 p ⟨64, by decide⟩ :=
    (slice_cols 64 _ _ p (0 : Fin 1) (by decide)).trans (pay4_apply x0 x2 x3 p _)
  unfold k0_pay6
  refine Eq.trans ?_ (congrArg softplus e)
  exact softplus_ker _

theorem pay7_apply (x0 : Vec Ideal S64x1024 .f32) (x2 : Vec Ideal S128x1024 .f32) (x3 : Vec Ideal S1x128 .f32) (p : Fin 64) :
    k0_pay7 (F := Ideal) x0 x2 x3 (ix2 p (0 : Fin 1)) = sigmoid (oBlk x0 x2 x3 p ⟨65, by decide⟩) := by
  have e : extractStridedSlice S64x1 ![0, 65] (k0_pay4 (F := Ideal) x0 x2 x3) slices_S64x128_o0_65_S64x1 (ix2 p (0 : Fin 1))
      = oBlk x0 x2 x3 p ⟨65, by decide⟩ :=
    (slice_cols 65 _ _ p (0 : Fin 1) (by decide)).trans (pay4_apply x0 x2 x3 p _)
  unfold k0_pay7
  refine (logistic_at _ _).trans ?_
  rw [e]
  unfold Ideal.logistic sigmoid
  rw [w1_eq]

theorem pay9_apply (v11 : FVec Ideal S64x128 .f32) (p : Fin 64) :
    k0_pay9 (F := Ideal) v11 (ix2 p (0 : Fin 1)) = w1 + softplus (v11 (ix2 p ⟨69, by decide⟩)) := by
  have e : extractStridedSlice S64x1 ![0, 69] v11 slices_S64x128_o0_69_S64x1 (ix2 p (0 : Fin 1)) = v11 (ix2 p ⟨69, by decide⟩) :=
    slice_cols 69 _ _ p (0 : Fin 1) (by decide)
  unfold k0_pay9
  refine (addf_apply _ _ _).trans ?_
  refine congrArg (fun a : EReal => w1 + a) ?_
  refine Eq.trans ?_ (congrArg softplus e)
  exact softplus_ker _

/-- The three shift weights of row p: the softmax of the row's three shift logits. -/
theorem pay8_apply (x0 : Vec Ideal S64x1024 .f32) (x2 : Vec Ideal S128x1024 .f32) (x3 : Vec Ideal S1x128 .f32) (p : Fin 64) (c : Fin 3) :
    k0_pay8 (F := Ideal) x0 x2 x3 (ix2 p c) = softmax (fun c' : Fin 3 => oBlk x0 x2 x3 p ⟨66 + c'.val, by omega⟩) c := by
  have e : ∀ c' : Fin 3, extractStridedSlice S64x3 ![0, 66] (k0_pay4 (F := Ideal) x0 x2 x3) slices_S64x128_o0_66_S64x3 (ix2 p c')
      = oBlk x0 x2 x3 p ⟨66 + c'.val, by omega⟩ := fun c' =>
    (slice_cols 66 _ _ p c' (by omega)).trans (pay4_apply x0 x2 x3 p _)
  unfold k0_pay8
  generalize extractStridedSlice S64x3 ![0, 66] (k0_pay4 (F := Ideal) x0 x2 x3) slices_S64x128_o0_66_S64x3 = v30 at e ⊢
  have hmax : ∀ q : Fin 3, broadcastTo S64x3 (shapeCast S64x1 (maximumf (broadcast S64 (Scalar.ofBits (F := Ideal) .f32 0xFF800000#32))
        (multiReduction .maximumf [1] S64 v30 0xFF800000#32 reduces_S64x3_S64 (.inl rfl) rfl)) shapeCasts_S64_S64x1) broadcasts_S64x1_S64x3 (ix2 p q)
      = rowMax (fun c' : Fin 3 => v30 (ix2 p c')) := fun q => by
    refine (broadcastTo_a1_ab_apply _ _ p q).trans ?_
    refine (shapeCast_a_a1_apply _ _ p (0 : Fin 1)).trans ?_
    refine (maximumf_apply _ _ _).trans ?_
    unfold rowMax
    refine congrArg (max wNegInf) ?_
    exact rowMax_apply v30 _ _ _ _ p
  refine (divf_apply _ _ _).trans ?_
  unfold softmax
  have hexp : ∀ q : Fin 3, exp (subf v30 (broadcastTo S64x3 (shapeCast S64x1 (maximumf (broadcast S64 (Scalar.ofBits (F := Ideal) .f32 0xFF800000#32))
        (multiReduction .maximumf [1] S64 v30 0xFF800000#32 reduces_S64x3_S64 (.inl rfl) rfl)) shapeCasts_S64_S64x1) broadcasts_S64x1_S64x3)) (ix2 p q)
      = Ideal.exp (v30 (ix2 p q) - rowMax (fun c' : Fin 3 => v30 (ix2 p c'))) := fun q => by
    refine (exp_at _ _).trans ?_
    refine congrArg Ideal.exp ?_
    refine (subf_apply _ _ _).trans ?_
    rw [hmax q]
  refine congrArg₂ Ideal.div ?_ ?_
  · rw [hexp c]; simp only [e]
  · refine (broadcastTo_a1_ab_apply _ _ p c).trans ?_
    refine (shapeCast_a_a1_apply _ _ p (0 : Fin 1)).trans ?_
    refine (rowSum_apply _ _ _ _ _ p).trans ?_
    refine Finset.sum_congr rfl fun q _ => ?_
    rw [hexp q]; simp only [e]

/-- A [a,1] column broadcast along a row of b, read at (p, j). -/
theorem bcastCol {α : Type} {a b : ℕ} (v : (⟨2, ![a, 1]⟩ : Shape).Idx → α) (h : (⟨2, ![a, 1]⟩ : Shape).Broadcasts ⟨2, ![a, b]⟩)
    (p : Fin a) (j : Fin b) : broadcastTo ⟨2, ![a, b]⟩ v h (ix2 p j) = v (ix2 p (0 : Fin 1)) := broadcastTo_a1_ab_apply v h p j

/-- A row sum kept as a column, read at (p, 0). -/
theorem rowSumCol {a b : ℕ} (v : FVec Ideal ⟨2, ![a, b]⟩ .f32) (h : (⟨2, ![a, b]⟩ : Shape).Reduces [1] ⟨1, ![a]⟩)
    (hc : (⟨1, ![a]⟩ : Shape).ShapeCasts ⟨2, ![a, 1]⟩) (hφ) (hacc) (p : Fin a) :
    shapeCast ⟨2, ![a, 1]⟩ (multiReduction .add [1] ⟨1, ![a]⟩ v 0x00000000#32 h hφ hacc) hc (ix2 p (0 : Fin 1)) = ∑ s : Fin b, v (ix2 p s) :=
  (shapeCast_a_a1_apply _ hc p (0 : Fin 1)).trans (rowSum_apply v _ h hφ hacc p)

/-- The gated weighting of row p at position j, from the key block, the strength and gate columns, the normalised
    memory rows and the previous weightings. -/
theorem pay10_apply (v12 : FVec Ideal S64x64 .f32) (v27 v29 : FVec Ideal S64x1 .f32) (v67 : Vec Ideal S16384x64 .f32)
    (v79 : Vec Ideal S64x16384 .f32) (p : Fin 64) (j : Fin 16384) :
    k0_pay10 (F := Ideal) v12 v27 v29 v67 v79 (ix2 p j)
      = gateKer (v29 (ix2 p (0 : Fin 1)))
          (fun j' : Fin 16384 => v27 (ix2 p (0 : Fin 1)) * ∑ d : Fin 64, unitVec (fun e : Fin 64 => v12 (ix2 p e)) d * v67 (ix2 j' d))
          (fun j' : Fin 16384 => v79 (ix2 p j')) j := by
  unfold k0_pay10
  -- the normalised key
  have hkn : ∀ d : Fin 64, divf v12 (broadcastTo S64x64 (addf (sqrt (shapeCast S64x1 (multiReduction .add [1] S64 (mulf v12 v12) 0x00000000#32 reduces_S64x64_S64 (.inl rfl) rfl) shapeCasts_S64_S64x1))
        (broadcast S64x1 (Scalar.ofBits (F := Ideal) .f32 0x322BCC77#32))) broadcasts_S64x1_S64x64) (ix2 p d)
      = unitVec (fun e : Fin 64 => v12 (ix2 p e)) d := fun d => by
    refine (divf_apply _ _ _).trans ?_
    unfold unitVec
    refine congrArg (Ideal.div (v12 (ix2 p d))) ?_
    refine (bcastCol _ _ p d).trans ?_
    refine (addf_apply _ _ _).trans ?_
    refine congrArg₂ (fun a b : EReal => a + b) ?_ rfl
    refine (sqrt_at _ _).trans ?_
    refine congrArg Ideal.sqrt ?_
    refine (rowSumCol _ _ _ _ _ p).trans ?_
    rfl
  generalize divf v12 (broadcastTo S64x64 (addf (sqrt (shapeCast S64x1 (multiReduction .add [1] S64 (mulf v12 v12) 0x00000000#32 reduces_S64x64_S64 (.inl rfl) rfl) shapeCasts_S64_S64x1))
        (broadcast S64x1 (Scalar.ofBits (F := Ideal) .f32 0x322BCC77#32))) broadcasts_S64x1_S64x64) = v66 at hkn ⊢
  -- the exponentials
  have hexp : ∀ j' : Fin 16384, exp (mulf (broadcastTo S64x16384 v27 broadcasts_S64x1_S64x16384)
        (matmul dot_S64x64_S16384x64_S64x16384_1_1_0_0_n_n none v66 v67 (constant (F := Ideal) S64x16384 .f32 0x00000000#32))) (ix2 p j')
      = Ideal.exp (v27 (ix2 p (0 : Fin 1)) * ∑ d : Fin 64, unitVec (fun e : Fin 64 => v12 (ix2 p e)) d * v67 (ix2 j' d)) := fun j' => by
    refine (exp_at _ _).trans ?_
    refine congrArg Ideal.exp ?_
    refine (mulf_apply _ _ _).trans ?_
    refine congrArg₂ (fun a b : EReal => a * b) (bcastCol _ _ p j') ?_
    refine (Cert.LibDotT.matmulT_zero_apply dot_S64x64_S16384x64_S64x16384_1_1_0_0_n_n rfl rfl rfl rfl (fun _ _ => rfl) (fun _ _ => rfl) none v66 v67 p j').trans ?_
    exact Finset.sum_congr rfl fun d _ => by rw [hkn d]
  generalize exp (mulf (broadcastTo S64x16384 v27 broadcasts_S64x1_S64x16384)
        (matmul dot_S64x64_S16384x64_S64x16384_1_1_0_0_n_n none v66 v67 (constant (F := Ideal) S64x16384 .f32 0x00000000#32))) = v71 at hexp ⊢
  refine (addf_apply _ _ _).trans ?_
  unfold gateKer
  refine congrArg₂ (fun a b : EReal => a + b) ?_ ?_
  · refine (mulf_apply _ _ _).trans ?_
    refine congrArg₂ (fun a b : EReal => a * b) ?_ (hexp j)
    refine (bcastCol _ _ p j).trans ?_
    refine (divf_apply _ _ _).trans ?_
    refine congrArg (Ideal.div (v29 (ix2 p (0 : Fin 1)))) ?_
    refine (rowSumCol _ _ _ _ _ p).trans ?_
    exact Finset.sum_congr rfl fun j' _ => hexp j'
  · refine (mulf_apply _ _ _).trans ?_
    refine congrArg₂ (fun a b : EReal => a * b) ?_ rfl
    refine (bcastCol _ _ p j).trans ?_
    rfl

/-- A rotation of the rows of a [64, 16384] array by `sh` positions, read at (p, j): the operand at position j - sh, around the end. -/
theorem rotRow (sb : BitVec 32) (x : S64x16384.Idx → EReal) (h : S64x16384.Rotates 1 none) (p : Fin 64) (j k : Fin 16384)
    (hk : k.val = (j.val + 16384 - sb.toNat % 16384) % 16384) :
    dynamicRotate 1 sb none x h (ix2 p j) = x (ix2 p k) :=
  dynamicRotate_apply (1 : Fin 2) sb x h (ix2 p j) (ix2 p k) (by
    intro b
    match b with
    | ⟨0, _⟩ => rfl
    | ⟨1, _⟩ => exact Eq.trans hk (if_pos (Fin.ext rfl)).symm)

theorem pay11_apply (v12 : FVec Ideal S64x64 .f32) (v27 v29 : FVec Ideal S64x1 .f32) (v41 : FVec Ideal S64x3 .f32)
    (v67 : Vec Ideal S16384x64 .f32) (v79 : Vec Ideal S64x16384 .f32) (p : Fin 64) (j : Fin 16384) :
    k0_pay11 (F := Ideal) v12 v27 v29 v41 v67 v79 (ix2 p j)
      = v41 (ix2 p (0 : Fin 3)) * k0_pay10 (F := Ideal) v12 v27 v29 v67 v79 (ix2 p (nxt j)) := by
  unfold k0_pay11
  refine (mulf_apply _ _ _).trans ?_
  refine congrArg₂ (fun a b : EReal => a * b) ?_ ?_
  · refine (bcastCol _ _ p j).trans ?_
    exact slice_cols 0 _ _ p (0 : Fin 1) (by decide)
  · exact rotRow 16383#32 _ _ p j (nxt j) (by show (j.val + 1) % 16384 = (j.val + 16384 - 16383 % 16384) % 16384; omega)

theorem pay12_apply (v41 : FVec Ideal S64x3 .f32) (p : Fin 64) (j : Fin 16384) :
    k0_pay12 (F := Ideal) v41 (ix2 p j) = v41 (ix2 p (1 : Fin 3)) := by
  unfold k0_pay12
  refine (bcastCol _ _ p j).trans ?_
  exact slice_cols 1 _ _ p (0 : Fin 1) (by decide)

/-- The new weighting of row p at position j, from the shift weights, the exponent column, the gated weighting and its
    two shifted products. -/
theorem pay1_apply (v41 : FVec Ideal S64x3 .f32) (v58 : FVec Ideal S64x1 .f32) (v82 v86 v88 : FVec Ideal S64x16384 .f32)
    (p : Fin 64) (j : Fin 16384) :
    k0_pay1 (F := Ideal) v41 v58 v82 v86 v88 (ix2 p j)
      = normKer (fun j' : Fin 16384 => Ideal.exp (v58 (ix2 p (0 : Fin 1)) * Ideal.log
          (((v86 (ix2 p j') + v88 (ix2 p j') * v82 (ix2 p j')) + v41 (ix2 p (2 : Fin 3)) * v82 (ix2 p (prv j'))) + wEps12))) j := by
  unfold k0_pay1
  have hwp : ∀ j' : Fin 16384, exp (mulf (broadcastTo S64x16384 v58 broadcasts_S64x1_S64x16384) (log (addf (addf (addf v86 (mulf v88 v82))
        (mulf (broadcastTo S64x16384 (extractStridedSlice S64x1 ![0, 2] v41 slices_S64x3_o0_2_S64x1) broadcasts_S64x1_S64x16384)
          (dynamicRotate 1 1#32 none v82 rotates_S64x16384_d1)))
        (broadcast S64x16384 (Scalar.ofBits (F := Ideal) .f32 0x2B8CBCCC#32))))) (ix2 p j')
      = Ideal.exp (v58 (ix2 p (0 : Fin 1)) * Ideal.log
          (((v86 (ix2 p j') + v88 (ix2 p j') * v82 (ix2 p j')) + v41 (ix2 p (2 : Fin 3)) * v82 (ix2 p (prv j'))) + wEps12)) := fun j' => by
    refine (exp_at _ _).trans ?_
    refine congrArg Ideal.exp ?_
    refine (mulf_apply _ _ _).trans ?_
    refine congrArg₂ (fun a b : EReal => a * b) (bcastCol _ _ p j') ?_
    refine (log_at _ _).trans ?_
    refine congrArg Ideal.log ?_
    refine (addf_apply _ _ _).trans ?_
    refine congrArg₂ (fun a b : EReal => a + b) ?_ rfl
    refine (addf_apply _ _ _).trans ?_
    refine congrArg₂ (fun a b : EReal => a + b) rfl ?_
    refine (mulf_apply _ _ _).trans ?_
    refine congrArg₂ (fun a b : EReal => a * b) ?_ ?_
    · refine (bcastCol _ _ p j').trans ?_
      exact slice_cols 2 _ _ p (0 : Fin 1) (by decide)
    · exact rotRow 1#32 _ _ p j' (prv j') (by show (j'.val + 16383) % 16384 = (j'.val + 16384 - 1 % 16384) % 16384; omega)
  generalize exp (mulf (broadcastTo S64x16384 v58 broadcasts_S64x1_S64x16384) (log (addf (addf (addf v86 (mulf v88 v82))
        (mulf (broadcastTo S64x16384 (extractStridedSlice S64x1 ![0, 2] v41 slices_S64x3_o0_2_S64x1) broadcasts_S64x1_S64x16384)
          (dynamicRotate 1 1#32 none v82 rotates_S64x16384_d1)))
        (broadcast S64x16384 (Scalar.ofBits (F := Ideal) .f32 0x2B8CBCCC#32))))) = v101 at hwp ⊢
  refine (mulf_apply _ _ _).trans ?_
  unfold normKer
  refine congrArg₂ (fun a b : EReal => a * b) (hwp j) ?_
  refine (bcastCol _ _ p j).trans ?_
  refine (divf_apply _ _ _).trans ?_
  refine congrArg₂ Ideal.div rfl ?_
  refine (addf_apply _ _ _).trans ?_
  refine congrArg₂ (fun a b : EReal => a + b) ?_ rfl
  refine (rowSumCol _ _ _ _ _ p).trans ?_
  exact Finset.sum_congr rfl fun j' _ => hwp j'

/-- The read vector of row p at entry d: the row's new weighting against column d of the memory. -/
theorem pay2_apply (v5 : Vec Ideal S16384x64 .f32) (v41 : FVec Ideal S64x3 .f32) (v58 : FVec Ideal S64x1 .f32)
    (v82 v86 v88 : FVec Ideal S64x16384 .f32) (p : Fin 64) (d : Fin 64) :
    k0_pay2 (F := Ideal) v5 v41 v58 v82 v86 v88 (ix2 p d)
      = ∑ j : Fin 16384, k0_pay1 (F := Ideal) v41 v58 v82 v86 v88 (ix2 p j) * v5 (ix2 j d) := by
  unfold k0_pay2
  exact Cert.LibPlainDot.matmul_plain_apply dot_S64x16384_S16384x64_S64x64_1_0_0_1_n_n rfl rfl rfl rfl rfl rfl none _ v5 p d

/-- The gated weighting of row p at position j, over the block's loads. -/
theorem gate_apply (x0 : Vec Ideal S64x1024 .f32) (x1 : Vec Ideal S64x16384 .f32) (x2 : Vec Ideal S128x1024 .f32) (x3 : Vec Ideal S1x128 .f32)
    (x4 : Vec Ideal S16384x64 .f32) (p : Fin 64) (j : Fin 16384) :
    k0_pay10 (F := Ideal) (k0_pay5 x0 x2 x3) (k0_pay6 x0 x2 x3) (k0_pay7 x0 x2 x3) (k0_pay3 x4) x1 (ix2 p j)
      = gateKer (sigmoid (oBlk x0 x2 x3 p ⟨65, by decide⟩))
          (simScaled (fun d : Fin 64 => oBlk x0 x2 x3 p ⟨d.val, by omega⟩) (oBlk x0 x2 x3 p ⟨64, by decide⟩) (fun n d => x4 (ix2 n d)))
          (fun j' : Fin 16384 => x1 (ix2 p j')) j := by
  rw [pay10_apply]
  simp only [pay7_apply, pay6_apply, pay5_apply, pay3_apply]
  rfl

/-- THE BLOCK OF WEIGHTINGS at (p, j): the row formula in its second spelling, over the block's loads. -/
theorem blockW_apply (x0 : Vec Ideal S64x1024 .f32) (x1 : Vec Ideal S64x16384 .f32) (x2 : Vec Ideal S128x1024 .f32) (x3 : Vec Ideal S1x128 .f32)
    (x4 : Vec Ideal S16384x64 .f32) (p : Fin 64) (j : Fin 16384) :
    blockW (F := Ideal) x0 x1 x2 x3 (k0_pay3 (F := Ideal) x4) (ix2 p j)
      = wKer (fun d : Fin 64 => oBlk x0 x2 x3 p ⟨d.val, by omega⟩) (oBlk x0 x2 x3 p ⟨64, by decide⟩) (oBlk x0 x2 x3 p ⟨65, by decide⟩)
          (fun c : Fin 3 => oBlk x0 x2 x3 p ⟨66 + c.val, by omega⟩) (oBlk x0 x2 x3 p ⟨69, by decide⟩)
          (fun n d => x4 (ix2 n d)) (fun j' : Fin 16384 => x1 (ix2 p j')) j := by
  unfold blockW
  rw [pay1_apply]
  unfold wKer sharpKer shifted
  simp only [pay9_apply, pay4_apply, pay11_apply, pay12_apply, pay8_apply, gate_apply]

/-- THE BLOCK OF READ VECTORS at (p, d): the row's weighting against column d of the memory block. -/
theorem blockR_apply (x0 : Vec Ideal S64x1024 .f32) (x1 : Vec Ideal S64x16384 .f32) (x2 : Vec Ideal S128x1024 .f32) (x3 : Vec Ideal S1x128 .f32)
    (x4 x4' : Vec Ideal S16384x64 .f32) (p : Fin 64) (d : Fin 64) :
    blockR (F := Ideal) x0 x1 x2 x3 x4 (k0_pay3 (F := Ideal) x4') (ix2 p d)
      = ∑ j : Fin 16384, wKer (fun d : Fin 64 => oBlk x0 x2 x3 p ⟨d.val, by omega⟩) (oBlk x0 x2 x3 p ⟨64, by decide⟩) (oBlk x0 x2 x3 p ⟨65, by decide⟩)
          (fun c : Fin 3 => oBlk x0 x2 x3 p ⟨66 + c.val, by omega⟩) (oBlk x0 x2 x3 p ⟨69, by decide⟩)
          (fun n d => x4' (ix2 n d)) (fun j' : Fin 16384 => x1 (ix2 p j')) j * x4 (ix2 j d) := by
  unfold blockR
  rw [pay2_apply]
  refine Finset.sum_congr rfl fun j _ => ?_
  refine congrArg (fun a : EReal => a * x4 (ix2 j d)) ?_
  exact blockW_apply x0 x1 x2 x3 x4' p j

end Cert.KernelIdeal.KerValue

end
-- ==== Proof.LibScatterSet.lean ====
/-
  The set-scatter read at one element.

  `stablehlo.scatter` whose body returns the update (`x.at[…].set(v)`) is the left fold, over the update indices in
  row-major order, of the step "replace the element the update lands at by the update's element". Read at one result
  index `i` the fold is therefore decided by the update indices that land at `i`: when none does, the operand's
  element stays; when exactly one does, the result is that update's element, whatever came before or after it in the
  order. Both are shown for the fold over an arbitrary list of update positions, by induction on the list taken from its
  end, and then for the row-major list of all positions, which contains every one of them.
-/
import Idealize.ShloMosaic.PureOps
import Idealize.ShloMosaic.Lib.ValueIdx

namespace Cert.LibScatterSet

open Idealize.ShloMosaic

variable {α : Type} {w : Nat} {s si u : Shape}

/-- One step of the set-scatter's fold: update position `n` replaces the element it lands at. -/
def step (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- The set-scatter is the fold of `step` over all update positions. -/
theorem scatter_eq_foldl (d : ScatterDims s si u) (x : s.Idx → α) (idx : IVec si w) (upd : u.Idx → α) :
    Host.scatter d (fun _ b => b) x idx upd = (List.finRange u.numel).foldl (step d idx upd) x := rfl

/-- One step read at `i`: the update's element when position `n` lands at `i`, the old element otherwise. -/
theorem step_apply (d : ScatterDims s si u) (idx : IVec si w) (upd : u.Idx → α) (r : s.Idx → α) (n : Fin u.numel)
    (i : s.Idx) :
    step d idx upd r n i
      = if d.resultIdx? (u.rowMajor.symm n) idx = some i then upd (u.rowMajor.symm n) else r i := by
  unfold step
  cases h : d.resultIdx? (u.rowMajor.symm n) idx with
  | none => simp
  | some i' =>
    by_cases hi : i = i'
    · subst hi; simp
    · have : ¬ (some i' = some i) := fun e => hi (Option.some.inj e).symm
      simp [hi, this]

/-- No position of the list lands at `i`: the fold leaves the element at `i` as it was. -/
theorem foldl_miss (d : ScatterDims s si u) (idx : IVec si w) (upd : u.Idx → α) (i : s.Idx) (L : List (Fin u.numel)) :
    ∀ r : s.Idx → α, (∀ n ∈ L, d.resultIdx? (u.rowMajor.symm n) idx ≠ some i) →
      L.foldl (step d idx upd) r i = r i := by
  induction L using List.reverseRecOn with
  | nil => intro r _; rfl
  | append_singleton L n ih =>
    intro r h
    rw [List.foldl_append, List.foldl_cons, List.foldl_nil, step_apply]
    rw [if_neg (h n (by simp))]
    exact ih r fun m hm => h m (by simp [hm])

/-- Position `n₀` is in the list and lands at `i`, and it is the only position of the list that does: the fold has
    that update's element at `i`. -/
theorem foldl_hit (d : ScatterDims s si u) (idx : IVec si w) (upd : u.Idx → α) (i : s.Idx) (n₀ : Fin u.numel)
    (h₀ : d.resultIdx? (u.rowMajor.symm n₀) idx = some i) (L : List (Fin u.numel)) :
    ∀ r : s.Idx → α, n₀ ∈ L → (∀ n ∈ L, d.resultIdx? (u.rowMajor.symm n) idx = some i → n = n₀) →
      L.foldl (step d idx upd) r i = upd (u.rowMajor.symm n₀) := by
  induction L using List.reverseRecOn with
  | nil => intro r h; exact absurd h (by simp)
  | append_singleton L n ih =>
    intro r hmem huniq
    rw [List.foldl_append, List.foldl_cons, List.foldl_nil, step_apply]
    by_cases hn : d.resultIdx? (u.rowMajor.symm n) idx = some i
    · rw [if_pos hn, huniq n (by simp) hn]
    · rw [if_neg hn]
      have hne : n₀ ≠ n := fun e => hn (e ▸ h₀)
      have hmem' : n₀ ∈ L := by
        rcases List.mem_append.1 hmem with h | h
        · exact h
        · exact absurd (List.mem_singleton.1 h) hne
      exact ih r hmem' fun m hm => huniq m (by simp [hm])

/-- The set-scatter at an element exactly one update lands at: that update's element. -/
theorem scatter_set_hit (d : ScatterDims s si u) (x : s.Idx → α) (idx : IVec si w) (upd : u.Idx → α) (i : s.Idx)
    (j₀ : u.Idx) (h₀ : d.resultIdx? j₀ idx = some i) (huniq : ∀ j, d.resultIdx? j idx = some i → j = j₀) :
    Host.scatter d (fun _ b => b) x idx upd i = upd j₀ := by
  rw [scatter_eq_foldl]
  have e : u.rowMajor.symm (u.rowMajor j₀) = j₀ := u.rowMajor.symm_apply_apply j₀
  have := foldl_hit d idx upd i (u.rowMajor j₀) (by rw [e]; exact h₀) (List.finRange u.numel) x (List.mem_finRange _)
    (fun n _ hn => by
      have := huniq _ hn
      rw [← this]; exact (u.rowMajor.apply_symm_apply n).symm)
  rw [this, e]

/-- The set-scatter at an element no update lands at: the operand's element. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_eq_foldl]
  exact foldl_miss d idx upd i (List.finRange u.numel) x fun n _ => h _

/-! ## Where an update lands

An update index lands at the operand index whose coordinate on every axis is the window's start plus the update's window
coordinate, when that is inside the operand. The two directions below say so without the bounds: an index whose
coordinates are those sums is where the update lands, and only such an index is. When every scatter index is the word
zero the start is zero on every axis, so that an update lands at the index whose coordinates are its window coordinates. -/

/-- All scatter indices are the zero word: the window starts at zero on every axis. -/
theorem start_eq_zero (d : ScatterDims s si u) (j : u.Idx) (idx : IVec si w) (h0 : ∀ k, idx k = 0#w) (a : Fin s.rank) :
    d.start j idx a = 0 := by
  unfold ScatterDims.start
  split
  · rw [h0]; exact BitVec.toInt_zero
  · rfl

/-- An operand index whose coordinates are start plus window coordinate is where the update lands. -/
theorem resultIdx?_eq_some (d : ScatterDims s si u) (j : u.Idx) (idx : IVec si w) (i : s.Idx)
    (h : ∀ a, d.start j idx a + (d.window j a : Int) = ((i a).val : Int)) : d.resultIdx? j idx = some i := by
  have hall : ∀ a, 0 ≤ d.start j idx a + (d.window j a : Int) ∧ d.start j idx a + (d.window j a : Int) < (s.size a : Int) :=
    fun a => by rw [h a]; exact ⟨Int.natCast_nonneg _, by exact_mod_cast (i a).isLt⟩
  unfold ScatterDims.resultIdx?
  rw [dif_pos hall]
  congr 1
  funext a
  apply Fin.ext
  show (d.start j idx a + (d.window j a : Int)).toNat = (i a).val
  rw [h a]; exact Int.toNat_natCast _

/-- The operand index an update lands at has start plus window coordinate on every axis. -/
theorem eq_of_resultIdx?_eq_some (d : ScatterDims s si u) (j : u.Idx) (idx : IVec si w) (i : s.Idx)
    (h : d.resultIdx? j idx = some i) (a : Fin s.rank) :
    d.start j idx a + (d.window j a : Int) = ((i a).val : Int) := by
  unfold ScatterDims.resultIdx? at h
  split at h
  · rename_i hall
    have e := congrFun (Option.some.inj h) a
    have e' : (d.start j idx a + (d.window j a : Int)).toNat = (i a).val := congrArg Fin.val e
    rw [← e']; exact (Int.toNat_of_nonneg (hall a).1).symm
  · exact absurd h (by simp)

/-- With all scatter indices zero, an update lands at `i` exactly when its window coordinates are `i`'s. -/
theorem resultIdx?_zero_iff (d : ScatterDims s si u) (j : u.Idx) (idx : IVec si w) (h0 : ∀ k, idx k = 0#w) (i : s.Idx) :
    d.resultIdx? j idx = some i ↔ ∀ a, d.window j a = (i a).val := by
  constructor
  · intro h a
    have := eq_of_resultIdx?_eq_some d j idx i h a
    rw [start_eq_zero d j idx h0 a, Int.zero_add] at this
    exact_mod_cast this
  · intro h
    refine resultIdx?_eq_some d j idx i fun a => ?_
    rw [start_eq_zero d j idx h0 a, Int.zero_add, h a]

/-- The set-scatter at zero scatter indices, read at an element that exactly one update's window coordinates name:
    that update's element. -/
theorem scatter_set_zero_hit (d : ScatterDims s si u) (x : s.Idx → α) (idx : IVec si w) (upd : u.Idx → α)
    (h0 : ∀ k, idx k = 0#w) (i : s.Idx) (j₀ : u.Idx) (h₀ : ∀ a, d.window j₀ a = (i a).val)
    (huniq : ∀ j, (∀ a, d.window j a = (i a).val) → j = j₀) :
    Host.scatter d (fun _ b => b) x idx upd i = upd j₀ :=
  scatter_set_hit d x idx upd i j₀ ((resultIdx?_zero_iff d j₀ idx h0 i).2 h₀)
    fun j hj => huniq j ((resultIdx?_zero_iff d j idx h0 i).1 hj)

end Cert.LibScatterSet
-- ==== Proof.LibTyped.lean ====
/-
  Typed references: a value carried to a buffer's own type and back.

  A host operation inside a called function is stated over references that carry the type of the tensor value they
  hold; its function is moved to the buffer's own type along the reference's type equation, on the way in and on the
  way out. Reading a chain of such operations therefore leaves, around every intermediate value, a transport to the
  buffer's type followed by the transport back. The two cancel, whatever the reference.
-/
import Idealize.ShloMosaic.Lib.StableHlo

namespace Cert.LibTyped

open Idealize.ShloMosaic Idealize.ShloMosaic.StableHlo

/-- A value moved to a typed reference's buffer type and back is the value: both moves are transports along the one
    equation between the buffer's type and the value's, in opposite directions. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- The same the other way round: a buffer's contents read at the value's type and moved back. -/
theorem toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Cert.LibTyped
-- ==== Proof.LibTypedLit.lean ====
/-
  Typed references at a literal buffer: the transport is the identity.

  A typed reference made from a buffer at that buffer's own type carries the reflexive type equation, so moving a
  value to the buffer's type, or back, along it changes nothing.
-/
import Idealize.ShloMosaic.Lib.StableHlo

namespace Cert.LibTypedLit

open Idealize.ShloMosaic Idealize.ShloMosaic.StableHlo

/-- Contents of a buffer read at the buffer's own type through its typed reference are the contents. -/
theorem ofBuf_of {sig : RefSig} {Val : EltTy → Type} (r : Ref sig .tc) (h1) (h2) (v : r.ty.Contents Val) :
    (TRef.of (T := r.ty) r rfl h1 h2).ofBuf v = v := rfl

/-- A value of the buffer's own type moved to the buffer through its typed reference is the value. -/
theorem toBuf_of {sig : RefSig} {Val : EltTy → Type} (r : Ref sig .tc) (h1) (h2) (v : r.ty.Contents Val) :
    (TRef.of (T := r.ty) r rfl h1 h2).toBuf v = v := rfl

end Cert.LibTypedLit
-- ==== Proof.LibConcatPair.lean ====
/-
  A concatenate of two parts as a function of the two parts.

  The concatenate operation takes its parts as a list of arrays, each paired with its shape, and a side condition
  stated over that list's shapes. A statement about one part therefore cannot be rewritten in place: the side
  condition's type mentions the list. Read as a function of the two parts, with the side condition stated over the two
  shapes alone, the parts are ordinary arguments: a term that evaluates the buffers a program's operations write, one
  rewriting pass at a time, goes on through a concatenate's operands instead of stopping at it.
-/
import Idealize.ShloMosaic.PureOps

namespace Cert.LibConcatPair

open Idealize.ShloMosaic

/-- The concatenate of two parts along axis `a` of the result shape `t`, as a function of the parts. -/
def concat2 {α : Type} (t : Shape) (a : Fin t.rank) (s₁ s₂ : Shape) (h : Shape.Concatenates [s₁, s₂] t a)
    (x₁ : s₁.Idx → α) (x₂ : s₂.Idx → α) : t.Idx → α := concatenate t a [⟨s₁, x₁⟩, ⟨s₂, x₂⟩] h

/-- A concatenate of a literal list of two parts is that function of them. -/
theorem concatenate_pair {α : Type} (t : Shape) (a : Fin t.rank) (s₁ s₂ : Shape) (x₁ : s₁.Idx → α) (x₂ : s₂.Idx → α)
    (h : Shape.Concatenates [s₁, s₂] t a) : concatenate t a [⟨s₁, x₁⟩, ⟨s₂, x₂⟩] h = concat2 t a s₁ s₂ h x₁ x₂ := rfl

end Cert.LibConcatPair
-- ==== Proof.KerPads.lean ====
/-
  The kernel program's two padded operands, read at an element of the unpadded part.

  Before its region the kernel program writes the weight `[70, 1024]` into a `[128, 1024]` array of zeros and the bias
  `[70]` into a `[1, 128]` array of zeros, each by a set-scatter at scatter indices that are all the word zero. Every
  window therefore starts at zero: the weight's element `(c, k)` lands at `(c, k)`, the bias's element `c` at
  `(0, c)`, and no other update lands there. So the padded weight at `(c, k)`, `c < 70`, is the weight at `(c, k)`, and
  the padded bias at `(0, c)`, `c < 70`, is the bias at `c`. (The elements past the unpadded part keep the zero they
  had; they are not read here.)
-/
import proofs.«117153_g39170101739974_cont_8to1_b_292_8_alg».proof.Proof.Gen.KernelIdeal.Frame
import proofs.«117153_g39170101739974_cont_8to1_b_292_8_alg».proof.Proof.LibScatterSet
import proofs.«117153_g39170101739974_cont_8to1_b_292_8_alg».proof.Proof.LibTyped
import proofs.«117153_g39170101739974_cont_8to1_b_292_8_alg».proof.Proof.LibTypedLit
import proofs.«117153_g39170101739974_cont_8to1_b_292_8_alg».proof.Proof.LibConcatPair

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Cert.LibScatterSet

/-! ## The two records' window coordinates

The weight's scatter has both operand axes as window axes: an update's window coordinates are its own two coordinates.
The bias's scatter inserts the operand's first axis and takes the second as its one window axis: an update's window
coordinates are zero and its one coordinate. -/

theorem windowW_0 (j : S70x1024.Idx) : scatter_S128x1024_S1_S70x1024_01_n_0_0.window j ⟨0, by decide⟩ = (j 0).val := rfl
theorem windowW_1 (j : S70x1024.Idx) : scatter_S128x1024_S1_S70x1024_01_n_0_0.window j ⟨1, by decide⟩ = (j 1).val := rfl
theorem windowb_0 (j : S70.Idx) : scatter_S1x128_S2_S70_0_0_01_0.window j ⟨0, by decide⟩ = 0 := rfl
theorem windowb_1 (j : S70.Idx) : scatter_S1x128_S2_S70_0_0_01_0.window j ⟨1, by decide⟩ = (j 0).val := rfl

/-! ## The scatter indices are zero -/

/-- The weight's one scatter index: a broadcast of the constant zero. -/
theorem idxW_zero (k : S1.Idx) : broadcastInDim S1 ![] bcast_S_S1 (constantI S_ 32 0#32) k = 0#32 := rfl

/-- The bias's two scatter indices: two such broadcasts side by side. -/
theorem idxb_zero (k : S2.Idx) :
    Cert.LibConcatPair.concat2 S2 0 S1 S1 concatenates_S1_S1_S2_d0 (broadcastInDim S1 ![] bcast_S_S1 (constantI S_ 32 0#32))
      (broadcastInDim S1 ![] bcast_S_S1 (constantI S_ 32 0#32)) k = 0#32 := by
  obtain ⟨k0, rfl⟩ : ∃ k0 : Fin 2, k = ix1 k0 := ⟨k 0, eq_ix1 k⟩
  match k0 with
  | ⟨0, _⟩ => rfl
  | ⟨1, _⟩ => rfl

/-! ## The padded operands as the operations' terms -/

variable (m : (ℓ : Loc nD τ sig) → Buf (Elt Ideal) ℓ)

/-- The padded weight when the region is entered: the set-scatter of the weight into zeros, at the zero index. -/
theorem V_v2_eq (c : Dev nD) :
    (V (F := Ideal) m c main_call0_v2 : S128x1024.Idx → EReal)
      = Host.scatter scatter_S128x1024_S1_S70x1024_01_n_0_0 (fun _ b => b)
          (broadcastInDim S128x1024 ![] bcast_S_S128x1024 (constant (F := Ideal) S_ .f32 0x00000000#32))
          (broadcastInDim S1 ![] bcast_S_S1 (constantI S_ 32 0#32)) (m ((c : Thread nD τ).loc main_arg2)) := by
  dsimp only [Gen.V, Gen.hostOps0]
  after_results
  simp only [Cert.LibTyped.ofBuf_toBuf]
  refine Eq.trans (Cert.LibTypedLit.toBuf_of main_call0_v2 _ _ _) ?_
  refine congrArg (Host.scatter scatter_S128x1024_S1_S70x1024_01_n_0_0 (fun _ b => b) _ _) ?_
  exact Cert.LibTypedLit.ofBuf_of main_arg2 _ _ _

/-- The padded bias when the region is entered: the set-scatter of the bias into zeros, at the zero index pair. -/
theorem V_v7_eq (c : Dev nD) :
    (V (F := Ideal) m c main_call0_v7 : S1x128.Idx → EReal)
      = Host.scatter scatter_S1x128_S2_S70_0_0_01_0 (fun _ b => b)
          (broadcastInDim S1x128 ![] bcast_S_S1x128 (constant (F := Ideal) S_ .f32 0x00000000#32))
          (Cert.LibConcatPair.concat2 S2 0 S1 S1 concatenates_S1_S1_S2_d0 (broadcastInDim S1 ![] bcast_S_S1 (constantI S_ 32 0#32))
            (broadcastInDim S1 ![] bcast_S_S1 (constantI S_ 32 0#32)))
          (m ((c : Thread nD τ).loc main_arg3)) := by
  dsimp only [Gen.V, Gen.hostOps0]
  after_results
  simp only [Cert.LibConcatPair.concatenate_pair, Cert.LibTyped.ofBuf_toBuf]
  refine Eq.trans (Cert.LibTypedLit.toBuf_of main_call0_v7 _ _ _) ?_
  refine congrArg (Host.scatter scatter_S1x128_S2_S70_0_0_01_0 (fun _ b => b) _ _) ?_
  exact Cert.LibTypedLit.ofBuf_of main_arg3 _ _ _

/-! ## The padded operands at an element of the unpadded part -/

/-- The padded weight at row `cc < 70`, column `k`: the weight there. -/
theorem V_Wpad (c : Dev nD) (cc : Fin 128) (k : Fin 1024) (h : cc.val < 70) :
    (V (F := Ideal) m c main_call0_v2 : S128x1024.Idx → EReal) (ix2 cc k)
      = (m ((c : Thread nD τ).loc main_arg2) : S70x1024.Idx → EReal) (ix2 ⟨cc.val, h⟩ k) := by
  rw [V_v2_eq m c]
  refine scatter_set_zero_hit scatter_S128x1024_S1_S70x1024_01_n_0_0 _ _ _ idxW_zero (ix2 cc k) (ix2 ⟨cc.val, h⟩ k)
    (fun a => match a with | ⟨0, _⟩ => rfl | ⟨1, _⟩ => rfl) fun j hj => ?_
  have h0 : (j 0).val = cc.val := (windowW_0 j).symm.trans (hj ⟨0, by decide⟩)
  have h1 : (j 1).val = k.val := (windowW_1 j).symm.trans (hj ⟨1, by decide⟩)
  have e0 : j 0 = (⟨cc.val, h⟩ : Fin 70) := Fin.ext h0
  have e1 : j 1 = k := Fin.ext h1
  rw [eq_ix2 j, e0, e1]
  all_goals rfl

/-- The padded bias at column `cc < 70` of its one row: the bias there. -/
theorem V_bpad (c : Dev nD) (cc : Fin 128) (h : cc.val < 70) :
    (V (F := Ideal) m c main_call0_v7 : S1x128.Idx → EReal) (ix2 (0 : Fin 1) cc)
      = (m ((c : Thread nD τ).loc main_arg3) : S70.Idx → EReal) (ix1 ⟨cc.val, h⟩) := by
  rw [V_v7_eq m c]
  refine scatter_set_zero_hit scatter_S1x128_S2_S70_0_0_01_0 _ _ _ idxb_zero (ix2 (0 : Fin 1) cc) (ix1 ⟨cc.val, h⟩)
    (fun a => match a with | ⟨0, _⟩ => rfl | ⟨1, _⟩ => rfl) fun j hj => ?_
  have h1 : (j 0).val = cc.val := (windowb_1 j).symm.trans (hj ⟨1, by decide⟩)
  have e0 : j 0 = (⟨cc.val, h⟩ : Fin 70) := Fin.ext h1
  rw [eq_ix1 j, e0]
  all_goals rfl

end Cert.KernelIdeal.KerValue
-- ==== Proof.KerFinal.lean ====
/-
  From blocks to arrays.

  Grid point t handles batch rows 64·t … 64·t+63: its blocks of the inputs and of the previous weightings are those rows,
  its blocks of the padded weights, the padded bias and the memory are the whole arrays, and it writes rows 64·t … of
  both results. Rows 0 … 69 of the padded weights and bias are the weights and the bias. So after the run the
  weightings' array is `wOutK` of the argument arrays at every (row, position) and the read vectors' array is `rOutK`.
-/
import proofs.«117153_g39170101739974_cont_8to1_b_292_8_alg».proof.Proof.KerPoints
import proofs.«117153_g39170101739974_cont_8to1_b_292_8_alg».proof.Proof.KerRead
import proofs.«117153_g39170101739974_cont_8to1_b_292_8_alg».proof.Proof.KerPads

noncomputable section

open Idealize.ShloMosaic Idealize.ShloMosaic.TcCoe Idealize.SL.Sem Idealize.ShloMosaic.ValueIdx
open Idealize.ShloMosaic.Pipeline (Dat)
open scoped BigOperators

namespace Cert.KernelIdeal.KerValue

open Cert.KernelIdeal Cert.KernelIdeal.Gen Cert.ReadHead

variable (m : (ℓ : Loc nD τ sig) → Buf (Elt Ideal) ℓ)

/-- The argument arrays by coordinates. -/
def Xarr (c : Dev nD) : Fin 1024 → Fin 1024 → EReal := fun p k => (m ((c : Thread nD τ).loc main_arg0) : S1024x1024.Idx → EReal) (ix2 p k)
def WParr (c : Dev nD) : Fin 1024 → Fin 16384 → EReal := fun p j => (m ((c : Thread nD τ).loc main_arg1) : S1024x16384.Idx → EReal) (ix2 p j)
def Warr (c : Dev nD) : Fin 70 → Fin 1024 → EReal := fun cc k => (m ((c : Thread nD τ).loc main_arg2) : S70x1024.Idx → EReal) (ix2 cc k)
def Barr (c : Dev nD) : Fin 70 → EReal := fun cc => (m ((c : Thread nD τ).loc main_arg3) : S70.Idx → EReal) (ix1 cc)
def MEMarr (c : Dev nD) : Fin 16384 → Fin 64 → EReal := fun n d => (m ((c : Thread nD τ).loc main_arg4) : S16384x64.Idx → EReal) (ix2 n d)

/-- The two results as whole-array functions of the argument arrays. -/
def Gw (c : Dev nD) : S1024x16384.Idx → EReal := fun i => wOutK (Xarr m c) (WParr m c) (Warr m c) (Barr m c) (MEMarr m c) (i 0) (i 1)
def Gr (c : Dev nD) : S1024x64.Idx → EReal := fun i => rOutK (Xarr m c) (WParr m c) (Warr m c) (Barr m c) (MEMarr m c) (i 0) (i 1)

/-- The windows' block index maps, decided over the sixteen grid points: the blocks of the inputs, the previous weightings and the two results move with the point along the rows; those of the padded weights, the padded bias and the memory stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The batch row that row p of point t's blocks is. -/
def rowOf (t : Fin cfg0.N) (p : Fin 64) : Fin 1024 :=
  ⟨64 * t.val + p.val, by have h1 : t.val < 16 := lt_of_lt_of_eq t.isLt N16; have h2 := p.isLt; omega⟩

theorem blk0 (c : Dev nD) (t : Fin cfg0.N) (p : Fin 64) (k : Fin 1024) : iblk m c 0 t (ix2 p k) = Xarr m c (rowOf t p) k := by
  obtain ⟨e0, e1, -⟩ := idx_facts t
  have h : ((cfg0.win 0).blk t).view.emb (ix2 p k) = ix2 (rowOf t p) k := by
    funext a; apply Fin.ext
    match a with
    | ⟨0, _⟩ => show win0_0.index t (0 : Fin 2) * 64 + 1 * p.val = 64 * t.val + p.val; omega
    | ⟨1, _⟩ => show win0_0.index t (1 : Fin 2) * 1024 + 1 * k.val = k.val; omega
  show V m c main_arg0 (((cfg0.win 0).blk t).view.emb (ix2 p k)) = _
  rw [h, V_main_arg0]
  rfl

theorem blk1 (c : Dev nD) (t : Fin cfg0.N) (p : Fin 64) (j : Fin 16384) : iblk m c 1 t (ix2 p j) = WParr m c (rowOf t p) j := by
  obtain ⟨-, -, e0, e1, -⟩ := idx_facts t
  have h : ((cfg0.win 1).blk t).view.emb (ix2 p j) = ix2 (rowOf t p) j := by
    funext a; apply Fin.ext
    match a with
    | ⟨0, _⟩ => show win0_1.index t (0 : Fin 2) * 64 + 1 * p.val = 64 * t.val + p.val; omega
    | ⟨1, _⟩ => show win0_1.index t (1 : Fin 2) * 16384 + 1 * j.val = j.val; omega
  show V m c main_arg1 (((cfg0.win 1).blk t).view.emb (ix2 p j)) = _
  rw [h, V_main_arg1]
  rfl

theorem blk2 (c : Dev nD) (t : Fin cfg0.N) (cc : Fin 128) (k : Fin 1024) (hc : cc.val < 70) : iblk m c 2 t (ix2 cc k) = Warr m c ⟨cc.val, hc⟩ k := by
  obtain ⟨-, -, -, -, e0, e1, -⟩ := idx_facts t
  have h : ((cfg0.win 2).blk t).view.emb (ix2 cc k) = ix2 cc k := by
    funext a; apply Fin.ext
    match a with
    | ⟨0, _⟩ => show win0_2.index t (0 : Fin 2) * 128 + 1 * cc.val = cc.val; omega
    | ⟨1, _⟩ => show win0_2.index t (1 : Fin 2) * 1024 + 1 * k.val = k.val; omega
  show V m c main_call0_v2 (((cfg0.win 2).blk t).view.emb (ix2 cc k)) = _
  rw [h]
  exact V_Wpad m c cc k hc

theorem blk3 (c : Dev nD) (t : Fin cfg0.N) (cc : Fin 128) (hc : cc.val < 70) : iblk m c 3 t (ix2 (0 : Fin 1) cc) = Barr m c ⟨cc.val, hc⟩ := by
  obtain ⟨-, -, -, -, -, -, e0, e1, -⟩ := idx_facts t
  have h : ((cfg0.win 3).blk t).view.emb (ix2 (0 : Fin 1) cc) = ix2 (0 : Fin 1) cc := by
    funext a; apply Fin.ext
    match a with
    | ⟨0, _⟩ => show win0_3.index t (0 : Fin 2) * 1 + 1 * 0 = 0; omega
    | ⟨1, _⟩ => show win0_3.index t (1 : Fin 2) * 128 + 1 * cc.val = cc.val; omega
  show V m c main_call0_v7 (((cfg0.win 3).blk t).view.emb (ix2 (0 : Fin 1) cc)) = _
  rw [h]
  exact V_bpad m c cc hc

theorem blk4 (c : Dev nD) (t : Fin cfg0.N) (n : Fin 16384) (d : Fin 64) : iblk m c 4 t (ix2 n d) = MEMarr m c n d := by
  obtain ⟨-, -, -, -, -, -, -, -, e0, e1, -⟩ := idx_facts t
  have h : ((cfg0.win 4).blk t).view.emb (ix2 n d) = ix2 n d := by
    funext a; apply Fin.ext
    match a with
    | ⟨0, _⟩ => show win0_4.index t (0 : Fin 2) * 16384 + 1 * n.val = n.val; omega
    | ⟨1, _⟩ => show win0_4.index t (1 : Fin 2) * 64 + 1 * d.val = d.val; omega
  show V m c main_arg4 (((cfg0.win 4).blk t).view.emb (ix2 n d)) = _
  rw [h, V_main_arg4]
  rfl

/-- Entry c < 70 of row p of point t's affine layer is entry c of batch row 64·t+p of the controller's layer. -/
theorem oBlk_eq (c : Dev nD) (t : Fin cfg0.N) (p : Fin 64) (cc : Fin 128) (hc : cc.val < 70) :
    oBlk (iblk m c 0 t) (iblk m c 2 t) (iblk m c 3 t) p cc = rowOut (Xarr m c) (Warr m c) (Barr m c) (rowOf t p) ⟨cc.val, hc⟩ := by
  unfold oBlk rowOut
  rw [blk3 m c t cc hc]
  refine congrArg (fun a : EReal => a + Barr m c ⟨cc.val, hc⟩) ?_
  exact Finset.sum_congr rfl fun k _ => by rw [blk0 m c t p k, blk2 m c t cc k hc]

/-- The row formula over point t's blocks, at row p, is batch row 64·t+p of `wOutK`. -/
theorem wKer_row (c : Dev nD) (t : Fin cfg0.N) (p : Fin 64) (j : Fin 16384) :
    wKer (fun d : Fin 64 => oBlk (iblk m c 0 t) (iblk m c 2 t) (iblk m c 3 t) p ⟨d.val, by omega⟩)
        (oBlk (iblk m c 0 t) (iblk m c 2 t) (iblk m c 3 t) p ⟨64, by decide⟩) (oBlk (iblk m c 0 t) (iblk m c 2 t) (iblk m c 3 t) p ⟨65, by decide⟩)
        (fun cc : Fin 3 => oBlk (iblk m c 0 t) (iblk m c 2 t) (iblk m c 3 t) p ⟨66 + cc.val, by omega⟩)
        (oBlk (iblk m c 0 t) (iblk m c 2 t) (iblk m c 3 t) p ⟨69, by decide⟩)
        (fun n d => iblk m c 4 p0 (ix2 n d)) (fun j' : Fin 16384 => iblk m c 1 t (ix2 p j')) j
      = wOutK (Xarr m c) (WParr m c) (Warr m c) (Barr m c) (MEMarr m c) (rowOf t p) j := by
  unfold wOutK
  have e1 : (fun d : Fin 64 => oBlk (iblk m c 0 t) (iblk m c 2 t) (iblk m c 3 t) p ⟨d.val, by omega⟩)
      = (fun d : Fin 64 => rowOut (Xarr m c) (Warr m c) (Barr m c) (rowOf t p) ⟨d.val, by omega⟩) :=
    funext fun d => oBlk_eq m c t p ⟨d.val, by omega⟩ (by show d.val < 70; omega)
  have e2 : (fun cc : Fin 3 => oBlk (iblk m c 0 t) (iblk m c 2 t) (iblk m c 3 t) p ⟨66 + cc.val, by omega⟩)
      = (fun cc : Fin 3 => rowOut (Xarr m c) (Warr m c) (Barr m c) (rowOf t p) ⟨66 + cc.val, by omega⟩) :=
    funext fun cc => oBlk_eq m c t p ⟨66 + cc.val, by omega⟩ (by show 66 + cc.val < 70; omega)
  have e3 : (fun n d => iblk m c 4 p0 (ix2 n d)) = MEMarr m c := funext fun n => funext fun d => blk4 m c p0 n d
  have e4 : (fun j' : Fin 16384 => iblk m c 1 t (ix2 p j')) = WParr m c (rowOf t p) := funext fun j' => blk1 m c t p j'
  rw [e1, e2, e3, e4, oBlk_eq m c t p ⟨64, by decide⟩ (by decide), oBlk_eq m c t p ⟨65, by decide⟩ (by decide),
    oBlk_eq m c t p ⟨69, by decide⟩ (by decide)]

/-- WHAT POINT t WRITES BACK to the weightings' array is block t of `Gw`. -/
theorem flushedW_eq (c : Dev nD) (t : Fin cfg0.N) :
    (dats m 0 c).flushed 6 t = ((cfg0.win 6).blk t).view.read (Elt Ideal) (Gw m c) := by
  rw [flushedW]
  obtain ⟨-, -, -, -, -, -, -, -, -, -, -, -, e0, e1⟩ := idx_facts t
  funext y
  obtain ⟨p, j, rfl⟩ : ∃ (p : Fin 64) (j : Fin 16384), y = ix2 p j := ⟨y 0, y 1, eq_ix2 y⟩
  have h : ((cfg0.win 6).blk t).view.emb (ix2 p j) = ix2 (rowOf t p) j := by
    funext a; apply Fin.ext
    match a with
    | ⟨0, _⟩ => show win0_6.index t (0 : Fin 2) * 64 + 1 * p.val = 64 * t.val + p.val; omega
    | ⟨1, _⟩ => show win0_6.index t (1 : Fin 2) * 16384 + 1 * j.val = j.val; omega
  show blockW (iblk m c 0 t) (iblk m c 1 t) (iblk m c 2 t) (iblk m c 3 t) (normRows m c) (ix2 p j)
    = Gw m c (((cfg0.win 6).blk t).view.emb (ix2 p j))
  rw [h]
  unfold normRows
  refine (blockW_apply (iblk m c 0 t) (iblk m c 1 t) (iblk m c 2 t) (iblk m c 3 t) (iblk m c 4 p0) p j).trans ?_
  exact wKer_row m c t p j

set_option maxRecDepth 65536 in
/-- WHAT POINT t WRITES BACK to the read vectors' array is block t of `Gr`. -/
theorem flushedR_eq (c : Dev nD) (t : Fin cfg0.N) :
    (dats m 0 c).flushed 5 t = ((cfg0.win 5).blk t).view.read (Elt Ideal) (Gr m c) := by
  rw [flushedR]
  obtain ⟨-, -, -, -, -, -, -, -, -, -, e0, e1, -⟩ := idx_facts t
  funext y
  obtain ⟨p, d, rfl⟩ : ∃ (p : Fin 64) (d : Fin 64), y = ix2 p d := ⟨y 0, y 1, eq_ix2 y⟩
  have h : ((cfg0.win 5).blk t).view.emb (ix2 p d) = ix2 (rowOf t p) d := by
    funext a; apply Fin.ext
    match a with
    | ⟨0, _⟩ => show win0_5.index t (0 : Fin 2) * 64 + 1 * p.val = 64 * t.val + p.val; omega
    | ⟨1, _⟩ => show win0_5.index t (1 : Fin 2) * 64 + 1 * d.val = d.val; omega
  show blockR (iblk m c 0 t) (iblk m c 1 t) (iblk m c 2 t) (iblk m c 3 t) (iblk m c 4 t) (normRows m c) (ix2 p d)
    = Gr m c (((cfg0.win 5).blk t).view.emb (ix2 p d))
  rw [h]
  unfold normRows
  refine (blockR_apply (iblk m c 0 t) (iblk m c 1 t) (iblk m c 2 t) (iblk m c 3 t) (iblk m c 4 t) (iblk m c 4 p0) p d).trans ?_
  show _ = rOutK (Xarr m c) (WParr m c) (Warr m c) (Barr m c) (MEMarr m c) (rowOf t p) d
  unfold rOutK
  refine Finset.sum_congr rfl fun j _ => ?_
  rw [blk4 m c t j d, wKer_row m c t p j]

/-- An index of the weightings' array is in point t's block iff each coordinate is in the block's range. -/
theorem mem_blk6 (t : Fin cfg0.N) (i : S1024x16384.Idx) :
    i ∈ ((cfg0.win 6).blk t).view.set ↔ ∀ a : Fin 2, win0_6.index t a * S64x16384.size a ≤ (i a).val ∧ (i a).val < win0_6.index t a * S64x16384.size a + S64x16384.size a := by
  show i ∈ ((View.whole main_v0_1).slice (win0_6.rect t)).set ↔ _
  rw [View.set_slice_whole, Rect.mem_set_unit]
  exact Iff.rfl

theorem mem_blk5 (t : Fin cfg0.N) (i : S1024x64.Idx) :
    i ∈ ((cfg0.win 5).blk t).view.set ↔ ∀ a : Fin 2, win0_5.index t a * S64x64.size a ≤ (i a).val ∧ (i a).val < win0_5.index t a * S64x64.size a + S64x64.size a := by
  show i ∈ ((View.whole main_v0_0).slice (win0_5.rect t)).set ↔ _
  rw [View.set_slice_whole, Rect.mem_set_unit]
  exact Iff.rfl

/-- Every row belongs to the block of the point its number divided by 64 names. -/
theorem cover6 (i : S1024x16384.Idx) : ∃ t : Fin cfg0.N, (cfg0.win 6).flush t = true ∧ i ∈ ((cfg0.win 6).blk t).view.set := by
  have hi0 : (i 0).val < 1024 := (i 0).isLt
  have hi1 : (i 1).val < 16384 := (i 1).isLt
  have ht : (i 0).val / 64 < cfg0.N := lt_of_lt_of_eq (by omega) N16.symm
  obtain ⟨-, -, -, -, -, -, -, -, -, -, -, -, e0, e1⟩ := idx_facts ⟨(i 0).val / 64, ht⟩
  refine ⟨⟨(i 0).val / 64, ht⟩, flush0_6 _, ?_⟩
  rw [mem_blk6]
  intro a
  match a with
  | ⟨0, _⟩ =>
    show win0_6.index ⟨(i 0).val / 64, ht⟩ (0 : Fin 2) * 64 ≤ (i 0).val ∧ (i 0).val < win0_6.index ⟨(i 0).val / 64, ht⟩ (0 : Fin 2) * 64 + 64
    have e0' : win0_6.index ⟨(i 0).val / 64, ht⟩ (0 : Fin 2) = (i 0).val / 64 := e0
    omega
  | ⟨1, _⟩ =>
    show win0_6.index ⟨(i 0).val / 64, ht⟩ (1 : Fin 2) * 16384 ≤ (i 1).val ∧ (i 1).val < win0_6.index ⟨(i 0).val / 64, ht⟩ (1 : Fin 2) * 16384 + 16384
    omega

theorem cover5 (i : S1024x64.Idx) : ∃ t : Fin cfg0.N, (cfg0.win 5).flush t = true ∧ i ∈ ((cfg0.win 5).blk t).view.set := by
  have hi0 : (i 0).val < 1024 := (i 0).isLt
  have hi1 : (i 1).val < 64 := (i 1).isLt
  have ht : (i 0).val / 64 < cfg0.N := lt_of_lt_of_eq (by omega) N16.symm
  obtain ⟨-, -, -, -, -, -, -, -, -, -, e0, e1, -⟩ := idx_facts ⟨(i 0).val / 64, ht⟩
  refine ⟨⟨(i 0).val / 64, ht⟩, flush0_5 _, ?_⟩
  rw [mem_blk5]
  intro a
  match a with
  | ⟨0, _⟩ =>
    show win0_5.index ⟨(i 0).val / 64, ht⟩ (0 : Fin 2) * 64 ≤ (i 0).val ∧ (i 0).val < win0_5.index ⟨(i 0).val / 64, ht⟩ (0 : Fin 2) * 64 + 64
    have e0' : win0_5.index ⟨(i 0).val / 64, ht⟩ (0 : Fin 2) = (i 0).val / 64 := e0
    omega
  | ⟨1, _⟩ =>
    show win0_5.index ⟨(i 0).val / 64, ht⟩ (1 : Fin 2) * 64 ≤ (i 1).val ∧ (i 1).val < win0_5.index ⟨(i 0).val / 64, ht⟩ (1 : Fin 2) * 64 + 64
    omega

/-- THE ARRAYS after the run. -/
theorem finalW (c : Dev nD) : (dats m 0 c).arrAt 6 cfg0.N = Gw m c :=
  (dats m 0 c).arrAt_eq_of_cover 6 (Gw m c) (fun t _ => flushedW_eq m c t) cover6

theorem finalR (c : Dev nD) : (dats m 0 c).arrAt 5 cfg0.N = Gr m c :=
  (dats m 0 c).arrAt_eq_of_cover 5 (Gr m c) (fun t _ => flushedR_eq m c t) cover5

/-- The kernel's run with both result arrays as functions of the argument arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = Gr m c
      ∧ r.2.mem ((c : Thread nD τ).loc main_v0_1) = Gw m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (finalR m c), (h c).2.1.trans (finalW m c), (h c).2.2⟩)
    (Value.run_blocks m ρ)

end Cert.KernelIdeal.KerValue

end
-- ==== Proof.LibHostRows.lean ====
/-
  The host's maximum over the second axis of a matrix, read at a row, at the exact (extended-real) values.

  Row `t` of an `[a, b]` array reduced over its second axis by `stablehlo.reduce` with a maximum collects the entries
  `(t, s)`, `s` running over the `b` columns: the fold of `max` over them from the starting value's one element. (The
  kernel-side `multi_reduction` forms and the stack form `[n, a, b]` are in LibRows.lean, whose coordinate lemma this uses.)
-/
import proofs.«117153_g39170101739974_cont_8to1_b_292_8_alg».proof.Proof.LibRows

namespace Idealize.ShloMosaic.ValueIdx

open Idealize.ShloMosaic

variable {φ : FTy}

/-- The host's maximum over the second axis of a matrix: at `t` the fold of `max` over the entries `(t, s)`, from the
    starting value's one element. -/
theorem hostRowMax_apply {a b : ℕ} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (t : Fin a) :
    Host.reduce FloatOps.maximumf x init h' hu (ix1 t)
      = (Finset.univ : Finset (Fin b)).fold max (init ix0) (fun s => x (ix2 t s)) := by
  rw [Host.reduce_eq_fold_single FloatOps.maximumf x init h' h hu, eq_ix0 (Shape.Idx.first hu)]
  have e : (x ∘ h.lift (ix1 t)) = fun s : Fin b => x (ix2 t s) := funext fun s => congrArg x (lift_last_ix2 h t s)
  rw [e]
  rfl

end Idealize.ShloMosaic.ValueIdx
-- ==== Proof.RefIsSpec.lean ====
/-
  The reference program read at an index is the specification.

  Row `p` of the affine layer is `rowOut`; its slices are the key (64 entries), the strength, gate and exponent
  logits and the three shift logits. Softplus, the logistic function and the three-entry softmax of these, the
  normalised key and memory rows, the scaled similarity, its softmax, the gated, shifted, sharpened and normalised
  weightings follow the program's operations one by one; each array is stated at coordinates `(p, c)` so that the
  next one rewrites with it.
-/
import proofs.«117153_g39170101739974_cont_8to1_b_292_8_alg».proof.Proof.ReadP
import proofs.«117153_g39170101739974_cont_8to1_b_292_8_alg».proof.Proof.Spec
import proofs.«117153_g39170101739974_cont_8to1_b_292_8_alg».proof.Proof.LibHostRows
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx Cert.ReadHead
open scoped BigOperators

variable (x0 : (⟨S1024x1024, .f32⟩ : BufTy).Contents (Elt Ideal)) (x1 : (⟨S1024x16384, .f32⟩ : BufTy).Contents (Elt Ideal))
  (x2 : (⟨S70x1024, .f32⟩ : BufTy).Contents (Elt Ideal)) (x3 : (⟨S70, .f32⟩ : BufTy).Contents (Elt Ideal))
  (x4 : (⟨S16384x64, .f32⟩ : BufTy).Contents (Elt Ideal))

/-! ## The affine layer and its slices -/

/-- The affine layer's entry `(p, c)`, on the arrays read by coordinates. -/
abbrev out (p : Fin 1024) (c : Fin 70) : EReal :=
  rowOut (fun p k => x0 (ix2 p k)) (fun c k => x2 (ix2 c k)) (fun c => x3 (ix1 c)) p c

/-- Entry `(p, c)` of the affine layer: the dot product of input row `p` with weight row `c`, plus the bias. -/
theorem ref_out (p : Fin 1024) (c : Fin 70) :
    Read.val_main_v4 (F := Ideal) x0 x2 x3 (ix2 p c) = out x0 x2 x3 p c := by
  have e1 : ∀ k : Fin 1024, Read.lidx_main_v1 (ix2 p c) k = ix2 p k := fun k => funext fun a => Fin.ext (by match a with | ⟨0, _⟩ => rfl | ⟨1, _⟩ => rfl)
  have e2 : ∀ k : Fin 1024, Read.idx_main_v0 (Read.ridx_main_v1 (ix2 p c) k) = ix2 c k := fun k => funext fun a => Fin.ext (by match a with | ⟨0, _⟩ => rfl | ⟨1, _⟩ => rfl)
  have e3 : Read.idx_main_v2 (Read.idx_main_v3 (ix2 p c)) = ix1 c := funext fun a => Fin.ext (by match a with | ⟨0, _⟩ => rfl)
  rw [Read.val_main_v4_apply, Read.val_main_v1_apply, Read.val_main_v3_apply, Read.val_main_v2_apply, e3]
  simp only [Read.val_main_v0_apply, e1, e2, Ideal.addf_def]
  rfl

/-- The key: columns 0..63. -/
abbrev kkf (p : Fin 1024) : Fin 64 → EReal := fun d => out x0 x2 x3 p ⟨d.val, by omega⟩
/-- The three shift logits: columns 66..68. -/
abbrev osf (p : Fin 1024) : Fin 3 → EReal := fun c => out x0 x2 x3 p ⟨66 + c.val, by omega⟩

theorem ref_key (p : Fin 1024) (d : Fin 64) :
    Read.val_main_v5 (F := Ideal) x0 x2 x3 (ix2 p d) = kkf x0 x2 x3 p d := by
  have e : Read.idx_main_v5 (ix2 p d) = ix2 p (⟨d.val, by omega⟩ : Fin 70) := funext fun a => Fin.ext (by match a with | ⟨0, _⟩ => rfl | ⟨1, _⟩ => rfl)
  rw [Read.val_main_v5_apply, e, ref_out]

theorem ref_ob (p : Fin 1024) (u : Fin 1) :
    Read.val_main_v6 (F := Ideal) x0 x2 x3 (ix2 p u) = out x0 x2 x3 p ⟨64, by decide⟩ := by
  obtain rfl : u = 0 := Subsingleton.elim _ _
  have e : Read.idx_main_v6 (ix2 p (0 : Fin 1)) = ix2 p (⟨64, by decide⟩ : Fin 70) := funext fun a => Fin.ext (by match a with | ⟨0, _⟩ => rfl | ⟨1, _⟩ => rfl)
  rw [Read.val_main_v6_apply, e, ref_out]

theorem ref_og (p : Fin 1024) (u : Fin 1) :
    Read.val_main_v7 (F := Ideal) x0 x2 x3 (ix2 p u) = out x0 x2 x3 p ⟨65, by decide⟩ := by
  obtain rfl : u = 0 := Subsingleton.elim _ _
  have e : Read.idx_main_v7 (ix2 p (0 : Fin 1)) = ix2 p (⟨65, by decide⟩ : Fin 70) := funext fun a => Fin.ext (by match a with | ⟨0, _⟩ => rfl | ⟨1, _⟩ => rfl)
  rw [Read.val_main_v7_apply, e, ref_out]

theorem ref_os (p : Fin 1024) (c : Fin 3) :
    Read.val_main_v8 (F := Ideal) x0 x2 x3 (ix2 p c) = osf x0 x2 x3 p c := by
  have e : Read.idx_main_v8 (ix2 p c) = ix2 p (⟨66 + c.val, by omega⟩ : Fin 70) := funext fun a => Fin.ext (by match a with | ⟨0, _⟩ => rfl | ⟨1, _⟩ => rfl)
  rw [Read.val_main_v8_apply, e, ref_out]

theorem ref_ogam (p : Fin 1024) (u : Fin 1) :
    Read.val_main_v9 (F := Ideal) x0 x2 x3 (ix2 p u) = out x0 x2 x3 p ⟨69, by decide⟩ := by
  obtain rfl : u = 0 := Subsingleton.elim _ _
  have e : Read.idx_main_v9 (ix2 p (0 : Fin 1)) = ix2 p (⟨69, by decide⟩ : Fin 70) := funext fun a => Fin.ext (by match a with | ⟨0, _⟩ => rfl | ⟨1, _⟩ => rfl)
  rw [Read.val_main_v9_apply, e, ref_out]

/-! ## The row's scalars -/

/-- The strength: softplus of column 64. The guard `d ≠ d` is never true on the extended reals, so the select takes
    its third operand. -/
theorem ref_beta (p : Fin 1024) (u : Fin 1) :
    Read.val_main_v10 (F := Ideal) x0 x2 x3 (ix2 p u) = softplus (out x0 x2 x3 p ⟨64, by decide⟩) := by
  have hg : ∀ d : EReal, FloatOps.cmpf (F := Ideal) (φ := .f32) .une d d = 0#1 := fun d => by
    show BitVec.ofBool (decide (d ≠ d)) = 0#1
    simp
  simp only [Read.val_main_v10_apply, Read.val_main_call0_v4_apply, hg, select_zero, Read.val_main_call0_v11_apply,
    Read.val_main_call0_v1_apply, Read.val_main_call0_v10_apply, Read.val_main_call0_v9_apply, Read.val_main_call0_v8_apply,
    Read.val_main_call0_v7_apply, Read.val_main_call0_v3_apply, Read.val_main_call0_v0_apply, Read.val_main_call0_v2_apply,
    Read.val_main_call0_cst_apply, ref_ob, Ideal.ofBits_def, Ideal.addf_def, Ideal.subf_def, Ideal.maximumf_def,
    Ideal.hostUnary_exp_def, Ideal.hostUnary_log1p_def, Ideal.hostNegf_def, Ideal.hostAbsf_def, Ideal.negf_def]
  rfl

/-- The gate: the logistic function of column 65. -/
theorem ref_g (p : Fin 1024) (u : Fin 1) :
    Read.val_main_v16 (F := Ideal) x0 x2 x3 (ix2 p u) = sigmoid (out x0 x2 x3 p ⟨65, by decide⟩) := by
  simp only [Read.val_main_v16_apply, Read.val_main_v15_apply, Read.val_main_cst_0_apply, Read.val_main_v14_apply,
    Read.val_main_v13_apply, Read.val_main_cst_apply, Read.val_main_v12_apply, Read.val_main_v11_apply, ref_og,
    Ideal.ofBits_def, Ideal.addf_def, Ideal.hostDivf_def, Ideal.hostUnary_exp_def, Ideal.hostNegf_def, Ideal.negf_def]
  rfl

/-- The largest shift logit, from -∞. -/
theorem ref_smax (p : Fin 1024) :
    Read.val_main_v17 (F := Ideal) x0 x2 x3 (ix1 p)
      = (Finset.univ : Finset (Fin 3)).fold max wNegInf (osf x0 x2 x3 p) := by
  unfold Read.val_main_v17
  rw [hostRowMax_apply (a := 1024) (b := 3) (Read.val_main_v8 (F := Ideal) x0 x2 x3) (Read.val_main_cst_1 (F := Ideal))
    reducesTo_S1024x3_S1024_d1 (by decide) h_S_ p]
  simp only [Read.val_main_cst_1_apply, Ideal.ofBits_def, ref_os]

/-- The shift weights: the softmax of the three shift logits. -/
theorem ref_s (p : Fin 1024) (c : Fin 3) :
    Read.val_main_v27 (F := Ideal) x0 x2 x3 (ix2 p c) = softmax (osf x0 x2 x3 p) c := by
  have hm : ∀ c : Fin 3, Read.val_main_v21 (F := Ideal) x0 x2 x3 (ix2 p c) = rowMax (osf x0 x2 x3 p) := fun c => by
    have e : Read.idx_main_v20 (Read.idx_main_v21 (ix2 p c)) = ix1 p := funext fun a => Fin.ext (by match a with | ⟨0, _⟩ => rfl)
    rw [Read.val_main_v21_apply, Read.val_main_v20_apply, Read.val_main_v19_apply, Read.val_main_v18_apply,
      Read.val_main_cst_2_apply, e, ref_smax]
    rfl
  have he : ∀ c : Fin 3, Read.val_main_v23 (F := Ideal) x0 x2 x3 (ix2 p c)
      = Ideal.exp (osf x0 x2 x3 p c - rowMax (osf x0 x2 x3 p)) := fun c => by
    rw [Read.val_main_v23_apply, Read.val_main_v22_apply, hm, ref_os]
    rfl
  have e : ∀ k : Fin 3, Read.idx_main_v24 (Read.idx_main_v25 (Read.idx_main_v26 (ix2 p c))) k = ix2 p k := fun k => funext fun a => Fin.ext (by match a with | ⟨0, _⟩ => rfl | ⟨1, _⟩ => rfl)
  rw [Read.val_main_v27_apply, he, Read.val_main_v26_apply, Read.val_main_v25_apply, Read.val_main_v24_apply]
  simp only [e, he, Read.val_main_cst_3_apply, Ideal.ofBits_def, Ideal.ofBits_zero_f32, zero_add, Ideal.hostDivf_def]
  rfl

/-- The sharpening exponent: one plus softplus of column 69. -/
theorem ref_gamma (p : Fin 1024) (u : Fin 1) :
    Read.val_main_v30 (F := Ideal) x0 x2 x3 (ix2 p u) = w1 + softplus (out x0 x2 x3 p ⟨69, by decide⟩) := by
  rw [Read.val_main_v30_apply, Read.val_main_v29_apply, Read.val_main_cst_4_apply]
  have hg : ∀ d : EReal, FloatOps.cmpf (F := Ideal) (φ := .f32) .une d d = 0#1 := fun d => by
    show BitVec.ofBool (decide (d ≠ d)) = 0#1
    simp
  simp only [Read.val_main_v28_apply, Read.val_main_call1_v4_apply, hg, select_zero, Read.val_main_call1_v11_apply,
    Read.val_main_call1_v1_apply, Read.val_main_call1_v10_apply, Read.val_main_call1_v9_apply, Read.val_main_call1_v8_apply,
    Read.val_main_call1_v7_apply, Read.val_main_call1_v3_apply, Read.val_main_call1_v0_apply, Read.val_main_call1_v2_apply,
    Read.val_main_call1_cst_apply, ref_ogam, Ideal.ofBits_def, Ideal.addf_def, Ideal.subf_def, Ideal.maximumf_def,
    Ideal.hostUnary_exp_def, Ideal.hostUnary_log1p_def, Ideal.hostNegf_def, Ideal.hostAbsf_def, Ideal.negf_def]
  rfl

/-! ## The normalised key and memory rows, and the scaled similarity -/

/-- The key divided by its norm plus ε₈. -/
theorem ref_kn (p : Fin 1024) (d : Fin 64) :
    Read.val_main_v35 (F := Ideal) x0 x2 x3 (ix2 p d) = unitVec (kkf x0 x2 x3 p) d := by
  have e : ∀ k : Fin 64, Read.idx_main_call2_v1 (Read.idx_main_call2_v2 (Read.idx_main_v34 (ix2 p d))) k = ix2 p k :=
    fun k => funext fun a => Fin.ext (by match a with | ⟨0, _⟩ => rfl | ⟨1, _⟩ => rfl)
  rw [Read.val_main_v35_apply, Read.val_main_v34_apply, Read.val_main_v33_apply, Read.val_main_v31_apply,
    Read.val_main_call2_v2_apply, Read.val_main_call2_v1_apply, Read.val_main_v32_apply, Read.val_main_cst_5_apply,
    Read.val_main_call2_cst_apply]
  simp only [e, Read.val_main_call2_v0_apply, ref_key, Ideal.ofBits_def, Ideal.ofBits_zero_f32, zero_add,
    Ideal.addf_def, Ideal.mulf_def, Ideal.hostDivf_def, Ideal.hostUnary_sqrt_def]
  rfl

/-- Memory row `j` divided by its norm plus ε₈. -/
theorem ref_mn (j : Fin 16384) (d : Fin 64) :
    Read.val_main_v40 (F := Ideal) x4 (ix2 j d) = unitVec (fun e => x4 (ix2 j e)) d := by
  have e : ∀ k : Fin 64, Read.idx_main_call3_v1 (Read.idx_main_call3_v2 (Read.idx_main_v39 (ix2 j d))) k = ix2 j k :=
    fun k => funext fun a => Fin.ext (by match a with | ⟨0, _⟩ => rfl | ⟨1, _⟩ => rfl)
  rw [Read.val_main_v40_apply, Read.val_main_v39_apply, Read.val_main_v38_apply, Read.val_main_v36_apply,
    Read.val_main_call3_v2_apply, Read.val_main_call3_v1_apply, Read.val_main_v37_apply, Read.val_main_cst_6_apply,
    Read.val_main_call3_cst_apply]
  simp only [e, Read.val_main_call3_v0_apply, Ideal.ofBits_def, Ideal.ofBits_zero_f32, zero_add,
    Ideal.addf_def, Ideal.mulf_def, Ideal.hostDivf_def, Ideal.hostUnary_sqrt_def]
  rfl

/-- The scaled similarity of row `p`'s key with every memory row. -/
abbrev zf (p : Fin 1024) : Fin 16384 → EReal :=
  simScaled (kkf x0 x2 x3 p) (out x0 x2 x3 p ⟨64, by decide⟩) (fun j d => x4 (ix2 j d))

theorem ref_z (p : Fin 1024) (j : Fin 16384) :
    Read.val_main_v44 (F := Ideal) x0 x2 x3 x4 (ix2 p j) = zf x0 x2 x3 x4 p j := by
  have e0 : Read.idx_main_v43 (ix2 p j) = ix2 p (0 : Fin 1) := funext fun a => Fin.ext (by match a with | ⟨0, _⟩ => rfl | ⟨1, _⟩ => rfl)
  have e1 : ∀ k : Fin 64, Read.lidx_main_v42 (ix2 p j) k = ix2 p k := fun k => funext fun a => Fin.ext (by match a with | ⟨0, _⟩ => rfl | ⟨1, _⟩ => rfl)
  have e2 : ∀ k : Fin 64, Read.idx_main_v41 (Read.ridx_main_v42 (ix2 p j) k) = ix2 j k := fun k => funext fun a => Fin.ext (by match a with | ⟨0, _⟩ => rfl | ⟨1, _⟩ => rfl)
  rw [Read.val_main_v44_apply, Read.val_main_v43_apply, Read.val_main_v42_apply, e0, ref_beta]
  simp only [e1, e2, Read.val_main_v41_apply, ref_kn, ref_mn, Ideal.mulf_def]
  rfl

/-! ## The content weighting and the gate -/

/-- The largest similarity of the row, from -∞. -/
theorem ref_zmax (p : Fin 1024) :
    Read.val_main_v45 (F := Ideal) x0 x2 x3 x4 (ix1 p)
      = (Finset.univ : Finset (Fin 16384)).fold max wNegInf (zf x0 x2 x3 x4 p) := by
  unfold Read.val_main_v45
  rw [hostRowMax_apply (a := 1024) (b := 16384) (Read.val_main_v44 (F := Ideal) x0 x2 x3 x4) (Read.val_main_cst_7 (F := Ideal))
    reducesTo_S1024x16384_S1024_d1 (by decide) h_S_ p]
  simp only [Read.val_main_cst_7_apply, Ideal.ofBits_def, ref_z]

/-- The content weighting: the softmax of the similarities. -/
theorem ref_wc (p : Fin 1024) (j : Fin 16384) :
    Read.val_main_v55 (F := Ideal) x0 x2 x3 x4 (ix2 p j) = softmax (zf x0 x2 x3 x4 p) j := by
  have hm : ∀ j : Fin 16384, Read.val_main_v49 (F := Ideal) x0 x2 x3 x4 (ix2 p j) = rowMax (zf x0 x2 x3 x4 p) := fun j => by
    have e : Read.idx_main_v48 (Read.idx_main_v49 (ix2 p j)) = ix1 p := funext fun a => Fin.ext (by match a with | ⟨0, _⟩ => rfl)
    rw [Read.val_main_v49_apply, Read.val_main_v48_apply, Read.val_main_v47_apply, Read.val_main_v46_apply,
      Read.val_main_cst_8_apply, e, ref_zmax]
    rfl
  have he : ∀ j : Fin 16384, Read.val_main_v51 (F := Ideal) x0 x2 x3 x4 (ix2 p j)
      = Ideal.exp (zf x0 x2 x3 x4 p j - rowMax (zf x0 x2 x3 x4 p)) := fun j => by
    rw [Read.val_main_v51_apply, Read.val_main_v50_apply, hm, ref_z]
    rfl
  have e : ∀ k : Fin 16384, Read.idx_main_v52 (Read.idx_main_v53 (Read.idx_main_v54 (ix2 p j))) k = ix2 p k := fun k => funext fun a => Fin.ext (by match a with | ⟨0, _⟩ => rfl | ⟨1, _⟩ => rfl)
  rw [Read.val_main_v55_apply, he, Read.val_main_v54_apply, Read.val_main_v53_apply, Read.val_main_v52_apply]
  simp only [e, he, Read.val_main_cst_9_apply, Ideal.ofBits_def, Ideal.ofBits_zero_f32, zero_add, Ideal.hostDivf_def]
  rfl

/-- The gated weighting of row `p`. -/
abbrev wgf (p : Fin 1024) : Fin 16384 → EReal :=
  gateRef (sigmoid (out x0 x2 x3 p ⟨65, by decide⟩)) (zf x0 x2 x3 x4 p) (fun j => x1 (ix2 p j))

theorem ref_wg (p : Fin 1024) (j : Fin 16384) :
    Read.val_main_v62 (F := Ideal) x0 x1 x2 x3 x4 (ix2 p j) = wgf x0 x1 x2 x3 x4 p j := by
  have e0 : Read.idx_main_v56 (ix2 p j) = ix2 p (0 : Fin 1) := funext fun a => Fin.ext (by match a with | ⟨0, _⟩ => rfl | ⟨1, _⟩ => rfl)
  have e1 : Read.idx_main_v60 (ix2 p j) = ix2 p (0 : Fin 1) := funext fun a => Fin.ext (by match a with | ⟨0, _⟩ => rfl | ⟨1, _⟩ => rfl)
  rw [Read.val_main_v62_apply, Read.val_main_v57_apply, Read.val_main_v56_apply, e0, ref_g, ref_wc,
    Read.val_main_v61_apply, Read.val_main_v60_apply, e1, Read.val_main_v59_apply, Read.val_main_v58_apply,
    Read.val_main_cst_10_apply, ref_g]
  rfl

/-! ## The two rotations of the gated weighting -/

/-- The slice of columns 1.. followed by column 0: entry `j` is the gated weighting's entry at the next position. -/
theorem ref_roll_next (p : Fin 1024) (j : Fin 16384) :
    Read.val_main_v64 (F := Ideal) x0 x1 x2 x3 x4 (ix2 p j)
      = Read.val_main_v62 (F := Ideal) x0 x1 x2 x3 x4 (ix2 p (nxt j)) := by
  unfold Read.val_main_v64
  by_cases hj : j.val < 16383
  · refine (concatenate_pair_apply_left (t := S1024x16384) (s₁ := S1024x16383) (s₂ := S1024x1) 1 _ _ _ (ix2 p j) rfl
      (ix2 p (⟨j.val, hj⟩ : Fin 16383)) (fun b => by match b with | ⟨0, _⟩ => rfl | ⟨1, _⟩ => rfl)).trans ?_
    have e : Read.idx_main_call4_v0 (ix2 p (⟨j.val, hj⟩ : Fin 16383)) = ix2 p (nxt j) := funext fun a => Fin.ext (by
      match a with
      | ⟨0, _⟩ => rfl
      | ⟨1, _⟩ =>
        show 1 + j.val = (j.val + 1) % 16384
        omega)
    rw [Read.val_main_call4_v0_apply, e]
  · have hj' : j.val = 16383 := by have := j.isLt; omega
    refine (concatenate_pair_apply_right (t := S1024x16384) (s₁ := S1024x16383) (s₂ := S1024x1) 1 _ _ _ (ix2 p j) rfl rfl
      (ix2 p (0 : Fin 1)) (fun b hb => by
        match b, hb with
        | ⟨0, _⟩, _ => rfl
        | ⟨1, _⟩, hb => exact absurd rfl hb)
      (by show 0 + 16383 = j.val; omega)).trans ?_
    have e : Read.idx_main_call4_v1 (ix2 p (0 : Fin 1)) = ix2 p (nxt j) := funext fun a => Fin.ext (by
      match a with
      | ⟨0, _⟩ => rfl
      | ⟨1, _⟩ =>
        show 0 = (j.val + 1) % 16384
        omega)
    rw [Read.val_main_call4_v1_apply, e]

/-- Column 16383 followed by the slice of columns 0..16382: entry `j` is the gated weighting's entry at the
    previous position. -/
theorem ref_roll_prev (p : Fin 1024) (j : Fin 16384) :
    Read.val_main_v72 (F := Ideal) x0 x1 x2 x3 x4 (ix2 p j)
      = Read.val_main_v62 (F := Ideal) x0 x1 x2 x3 x4 (ix2 p (prv j)) := by
  unfold Read.val_main_v72
  by_cases hj : j.val < 1
  · have hj' : j.val = 0 := by omega
    refine (concatenate_pair_apply_left (t := S1024x16384) (s₁ := S1024x1) (s₂ := S1024x16383) 1 _ _ _ (ix2 p j) rfl
      (ix2 p (⟨j.val, hj⟩ : Fin 1)) (fun b => by match b with | ⟨0, _⟩ => rfl | ⟨1, _⟩ => rfl)).trans ?_
    have e : Read.idx_main_call5_v0 (ix2 p (⟨j.val, hj⟩ : Fin 1)) = ix2 p (prv j) := funext fun a => Fin.ext (by
      match a with
      | ⟨0, _⟩ => rfl
      | ⟨1, _⟩ =>
        show 16383 + j.val = (j.val + 16383) % 16384
        omega)
    rw [Read.val_main_call5_v0_apply, e]
  · have hlt := j.isLt
    have hj' : j.val - 1 < 16383 := by omega
    refine (concatenate_pair_apply_right (t := S1024x16384) (s₁ := S1024x1) (s₂ := S1024x16383) 1 _ _ _ (ix2 p j) rfl rfl
      (ix2 p (⟨j.val - 1, hj'⟩ : Fin 16383)) (fun b hb => by
        match b, hb with
        | ⟨0, _⟩, _ => rfl
        | ⟨1, _⟩, hb => exact absurd rfl hb)
      (by show (j.val - 1) + 1 = j.val; omega)).trans ?_
    have e : Read.idx_main_call5_v1 (ix2 p (⟨j.val - 1, hj'⟩ : Fin 16383)) = ix2 p (prv j) := funext fun a => Fin.ext (by
      match a with
      | ⟨0, _⟩ => rfl
      | ⟨1, _⟩ =>
        show j.val - 1 = (j.val + 16383) % 16384
        omega)
    rw [Read.val_main_call5_v1_apply, e]

/-! ## The shifted, sharpened and normalised weighting, and the read vector -/

/-- The shifted weighting of row `p`. -/
abbrev wsf (p : Fin 1024) : Fin 16384 → EReal :=
  shifted (softmax (osf x0 x2 x3 p)) (wgf x0 x1 x2 x3 x4 p) nxt prv

theorem ref_ws (p : Fin 1024) (j : Fin 16384) :
    Read.val_main_v75 (F := Ideal) x0 x1 x2 x3 x4 (ix2 p j) = wsf x0 x1 x2 x3 x4 p j := by
  have e0 : Read.idx_main_v63 (Read.idx_main_v65 (ix2 p j)) = ix2 p (0 : Fin 3) := funext fun a => Fin.ext (by match a with | ⟨0, _⟩ => rfl | ⟨1, _⟩ => rfl)
  have e1 : Read.idx_main_v67 (Read.idx_main_v68 (ix2 p j)) = ix2 p (1 : Fin 3) := funext fun a => Fin.ext (by match a with | ⟨0, _⟩ => rfl | ⟨1, _⟩ => rfl)
  have e2 : Read.idx_main_v71 (Read.idx_main_v73 (ix2 p j)) = ix2 p (2 : Fin 3) := funext fun a => Fin.ext (by match a with | ⟨0, _⟩ => rfl | ⟨1, _⟩ => rfl)
  rw [Read.val_main_v75_apply, Read.val_main_v70_apply, Read.val_main_v66_apply, Read.val_main_v65_apply,
    Read.val_main_v63_apply, e0, Read.val_main_v69_apply, Read.val_main_v68_apply, Read.val_main_v67_apply, e1,
    Read.val_main_v74_apply, Read.val_main_v73_apply, Read.val_main_v71_apply, e2, ref_roll_next, ref_roll_prev]
  simp only [ref_s, ref_wg, Ideal.addf_def, Ideal.mulf_def]
  rfl

/-- The sharpened weighting of row `p`. -/
abbrev wpf (p : Fin 1024) : Fin 16384 → EReal :=
  sharpRef (wsf x0 x1 x2 x3 x4 p) (w1 + softplus (out x0 x2 x3 p ⟨69, by decide⟩))

theorem ref_wp (p : Fin 1024) (j : Fin 16384) :
    Read.val_main_v79 (F := Ideal) x0 x1 x2 x3 x4 (ix2 p j) = wpf x0 x1 x2 x3 x4 p j := by
  have e0 : Read.idx_main_v78 (ix2 p j) = ix2 p (0 : Fin 1) := funext fun a => Fin.ext (by match a with | ⟨0, _⟩ => rfl | ⟨1, _⟩ => rfl)
  rw [Read.val_main_v79_apply, Read.val_main_v77_apply, ref_ws, Read.val_main_v76_apply, Read.val_main_cst_11_apply,
    Read.val_main_v78_apply, e0, ref_gamma]
  rfl

/-- The weighting: the reference's first result at `(p, j)`. -/
theorem ref_w (p : Fin 1024) (j : Fin 16384) :
    Read.val_main_v85 (F := Ideal) x0 x1 x2 x3 x4 (ix2 p j)
      = wOut (fun p k => x0 (ix2 p k)) (fun p j => x1 (ix2 p j)) (fun c k => x2 (ix2 c k)) (fun c => x3 (ix1 c))
          (fun j d => x4 (ix2 j d)) p j := by
  have e : ∀ k : Fin 16384, Read.idx_main_v80 (Read.idx_main_v81 (Read.idx_main_v84 (ix2 p j))) k = ix2 p k :=
    fun k => funext fun a => Fin.ext (by match a with | ⟨0, _⟩ => rfl | ⟨1, _⟩ => rfl)
  rw [Read.val_main_v85_apply, ref_wp, Read.val_main_v84_apply, Read.val_main_v83_apply, Read.val_main_v81_apply,
    Read.val_main_v80_apply, Read.val_main_v82_apply, Read.val_main_cst_13_apply, Read.val_main_cst_12_apply]
  simp only [e, ref_wp, Ideal.ofBits_def, Ideal.ofBits_zero_f32, zero_add, Ideal.addf_def, Ideal.hostDivf_def]
  rfl

/-- The read vector: the reference's second result at `(p, d)`. -/
theorem ref_r (p : Fin 1024) (d : Fin 64) :
    Read.val_main_v86 (F := Ideal) x0 x1 x2 x3 x4 (ix2 p d)
      = rOut (fun p k => x0 (ix2 p k)) (fun p j => x1 (ix2 p j)) (fun c k => x2 (ix2 c k)) (fun c => x3 (ix1 c))
          (fun j d => x4 (ix2 j d)) p d := by
  have e1 : ∀ k : Fin 16384, Read.lidx_main_v86 (ix2 p d) k = ix2 p k := fun k => funext fun a => Fin.ext (by match a with | ⟨0, _⟩ => rfl | ⟨1, _⟩ => rfl)
  have e2 : ∀ k : Fin 16384, Read.ridx_main_v86 (ix2 p d) k = ix2 k d := fun k => funext fun a => Fin.ext (by match a with | ⟨0, _⟩ => rfl | ⟨1, _⟩ => rfl)
  rw [Read.val_main_v86_apply]
  simp only [e1, e2, ref_w]
  rfl

end Cert.ReferenceIdeal.RefValue

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.PreFacts.lean ====
/-
  The precondition "every float input is finite, and the second input is nonnegative", read back at the
  extended reals: from the printed predicate being all ones, every entry of each of the five arrays is a real
  number, and every entry of the second array is a nonnegative real number.
-/
import proofs.«117153_g39170101739974_cont_8to1_b_292_8_alg».proof.Pre_finite_inputs
import proofs.«117153_g39170101739974_cont_8to1_b_292_8_alg».proof.Proof.Gen.Pre_finite_inputs
import proofs.«117153_g39170101739974_cont_8to1_b_292_8_alg».proof.Proof.LibSums
import Idealize.ShloMosaic.Lib.ReduceAll
import Idealize.ShloMosaic.Lib.ValueIdx

noncomputable section

open Idealize.ShloMosaic Idealize.ShloMosaic.ValueIdx

namespace Cert.PreFacts

open Cert.Pre_finite_inputs

/-- The rank-0 shape has exactly one index: a function out of the empty set of axes. -/
instance subsingleton_scalar_idx : Subsingleton S_.Idx := ⟨fun a b => funext fun d => d.elim0⟩

/-- The f32 word 0 is the real number 0 on the extended reals. -/
theorem ofBits_zero_f32 : Ideal.ofBits .f32 0x00000000#32 = (0 : EReal) := by simp [Ideal.ofBits, Ideal.ieee]

/-- One element of "abs x < +infinity", x compared entrywise with the broadcast scalar word of +infinity: the bit at
    index i is the bit of max (x i) (-(x i)) < +infinity, so when it is 1 the entry x i is a real number. -/
theorem finite_elt {s : Shape} (x : FVec Ideal s .f32) (hb : S_.BroadcastsInDim s (![] : Fin 0 → Fin s.rank)) (i : s.Idx)
    (e : cmpf .olt (Host.absf x) (broadcastInDim s ![] hb (constant S_ .f32 0x7F800000#32)) i = 1#1) :
    ∃ r : ℝ, x i = r :=
  Cert.LibSums.real_of_finite_bit (x i) e

/-- One element of "x ≥ 0", x compared entrywise with the broadcast scalar word 0: the bit at index i is the bit of
    0 ≤ x i, so when it is 1 the entry x i is nonnegative. -/
theorem nonneg_elt {s : Shape} (x : FVec Ideal s .f32) (hb : S_.BroadcastsInDim s (![] : Fin 0 → Fin s.rank)) (i : s.Idx)
    (e : cmpf .oge x (broadcastInDim s ![] hb (constant S_ .f32 0x00000000#32)) i = 1#1) :
    (0 : EReal) ≤ x i := by
  have h : Ideal.ofBits .f32 0x00000000#32 ≤ x i := Cert.LibSums.of_ofBool_decide e
  rwa [ofBits_zero_f32] at h

/-- The precondition decoded. The predicate is a conjunction (by and on one-bit words) of six "all entries" tests, each
    a reduction by and over every axis: five tests "abs a_k < +infinity" and one test "a_1 ≥ 0". If the conjunction is
    the all-ones bit, each test is 1, so each of its entries is 1; an entry of a finiteness test being 1 makes that
    array entry a real number, and an entry of the sign test being 1 makes that entry of a_1 nonnegative. -/
theorem facts [Cert.Pre_finite_inputs.Facts] (a0 : FVec Ideal S1024x1024 .f32) (a1 : FVec Ideal S1024x16384 .f32)
    (a2 : FVec Ideal S70x1024 .f32) (a3 : FVec Ideal S70 .f32) (a4 : FVec Ideal S16384x64 .f32)
    (h : Cert.Pre_finite_inputs.fn (F := Ideal) a0 a1 a2 a3 a4 = (fun _ => 1#1)) :
    (∀ i, ∃ r : ℝ, a0 i = r) ∧ (∀ i, ∃ r : ℝ, 0 ≤ r ∧ a1 i = r) ∧ (∀ i, ∃ r : ℝ, a2 i = r)
      ∧ (∀ i, ∃ r : ℝ, a3 i = r) ∧ (∀ i, ∃ r : ℝ, a4 i = r) := by
  have h0 := congrFun h ValueIdx.ix0
  dsimp only [Cert.Pre_finite_inputs.fn, Cert.Pre_finite_inputs.fn_part1, andi] at h0
  -- the conjunction is nested to the left: ((((t0 ∧ t1) ∧ t2) ∧ t3) ∧ t4) ∧ t5
  obtain ⟨h5, t5⟩ := IntOp.andi_eq_one.1 h0
  obtain ⟨h4, t4⟩ := IntOp.andi_eq_one.1 h5
  obtain ⟨h3, t3⟩ := IntOp.andi_eq_one.1 h4
  obtain ⟨h2, t2⟩ := IntOp.andi_eq_one.1 h3
  obtain ⟨t0, t1⟩ := IntOp.andi_eq_one.1 h2
  refine ⟨fun i => ?_, fun i => ?_, fun i => ?_, fun i => ?_, fun i => ?_⟩
  · exact finite_elt a0 _ i (Host.reduce_andi_all _ _ _ _ _ t0 i)
  · obtain ⟨r, hr⟩ := finite_elt a1 _ i (Host.reduce_andi_all _ _ _ _ _ t1 i)
    have hn : (0 : EReal) ≤ a1 i := nonneg_elt a1 _ i (Host.reduce_andi_all _ _ _ _ _ t5 i)
    rw [hr] at hn
    exact ⟨r, EReal.coe_nonneg.1 hn, hr⟩
  · exact finite_elt a2 _ i (Host.reduce_andi_all _ _ _ _ _ t2 i)
  · exact finite_elt a3 _ i (Host.reduce_andi_all _ _ _ _ _ t3 i)
  · exact finite_elt a4 _ i (Host.reduce_andi_all _ _ _ _ _ t4 i)

end Cert.PreFacts

end
-- ==== Proof.lean ====
/-
  A read head over a content-addressed memory: the fused kernel against its plain reference, on the extended reals.

  For each of 1024 batch rows the controller's affine layer gives a key, a strength, a gate, three shift logits and a
  sharpening exponent; the row's new weighting over the 16384 memory rows is the softmax of the scaled cosine
  similarities, interpolated with the previous weighting by the gate, shifted circularly over {-1, 0, +1}, raised to
  the power γ and normalised; the read vector is that weighting times the memory.

  The two programs differ in three spellings: the kernel's softmax does not subtract the row maximum and divides the
  gate by the sum of exponentials before multiplying; it sharpens by exp(γ·log(ws + ε₁₂)) where the reference raises
  ws + ε₁₂ to the power γ; and it multiplies by the reciprocal of the sum where the reference divides. On finite inputs
  with a nonnegative previous weighting every quantity is a real number, ws ≥ 0 so the base ws + ε₁₂ is positive, and
  the two spellings are one function (RowMath). The kernel normalises the memory rows once, at its first grid point,
  into a buffer it keeps; every grid point computes 64 batch rows (KerPieces, KerPoints, KerRead, KerFinal); the padded
  rows of the weight matrix and the bias are never read by the formula (KerPads). The reference's two results are the
  same formula in its first spelling (RefIsSpec).
-/
import proofs.«117153_g39170101739974_cont_8to1_b_292_8_alg».proof.Defs
import proofs.«117153_g39170101739974_cont_8to1_b_292_8_alg».proof.Proof.Gen.Kernel
import proofs.«117153_g39170101739974_cont_8to1_b_292_8_alg».proof.Proof.Gen.Kernel.Skeleton
import proofs.«117153_g39170101739974_cont_8to1_b_292_8_alg».proof.Proof.Gen.Kernel.Launch
import proofs.«117153_g39170101739974_cont_8to1_b_292_8_alg».proof.Proof.Gen.Kernel.Points
import proofs.«117153_g39170101739974_cont_8to1_b_292_8_alg».proof.Proof.Gen.Kernel.Frame
import proofs.«117153_g39170101739974_cont_8to1_b_292_8_alg».proof.Proof.Gen.KernelIdeal
import proofs.«117153_g39170101739974_cont_8to1_b_292_8_alg».proof.Proof.Gen.KernelIdeal.Skeleton
import proofs.«117153_g39170101739974_cont_8to1_b_292_8_alg».proof.Proof.Gen.KernelIdeal.Launch
import proofs.«117153_g39170101739974_cont_8to1_b_292_8_alg».proof.Proof.Gen.KernelIdeal.Points
import proofs.«117153_g39170101739974_cont_8to1_b_292_8_alg».proof.Proof.Gen.KernelIdeal.Frame
import proofs.«117153_g39170101739974_cont_8to1_b_292_8_alg».proof.Proof.Gen.ReferenceIdeal
import proofs.«117153_g39170101739974_cont_8to1_b_292_8_alg».proof.Proof.Gen.Pre_finite_inputs
import proofs.«117153_g39170101739974_cont_8to1_b_292_8_alg».proof.Proof.Gen.KernelIdeal.Value
import proofs.«117153_g39170101739974_cont_8to1_b_292_8_alg».proof.Proof.KerFinal
import proofs.«117153_g39170101739974_cont_8to1_b_292_8_alg».proof.Proof.RefIsSpec
import proofs.«117153_g39170101739974_cont_8to1_b_292_8_alg».proof.Proof.RunP2
import proofs.«117153_g39170101739974_cont_8to1_b_292_8_alg».proof.Proof.RowMath
import proofs.«117153_g39170101739974_cont_8to1_b_292_8_alg».proof.Proof.PreFacts
import Idealize.ShloMosaic.Adequacy
import Idealize.ShloMosaic.Init

noncomputable section

namespace Cert.Proof

open Idealize.ShloMosaic Idealize.SL.Sem Idealize.ShloMosaic.ValueIdx
open Cert.KernelIdeal.KerValue Cert.ReadHead

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Under the precondition the five argument arrays hold real numbers and the previous weighting is nonnegative: so the
    reference's weighting (first spelling) at the kernel's arguments is the kernel's (second spelling). -/
theorem spellings (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ p j, wOut (Xarr m c) (WParr m c) (Warr m c) (Barr m c) (MEMarr m c) p j = wOutK (Xarr m c) (WParr m c) (Warr m c) (Barr m c) (MEMarr m c) p j)
    ∧ (∀ p d, rOut (Xarr m c) (WParr m c) (Warr m c) (Barr m c) (MEMarr m c) p d = rOutK (Xarr m c) (WParr m c) (Warr m c) (Barr m c) (MEMarr m c) p d) := by
  obtain ⟨h0, h1, h2, h3, h4⟩ := Cert.PreFacts.facts _ _ _ _ _ (hpre c)
  have hX : ∀ p k, ∃ r : ℝ, Xarr m c p k = r := fun p k => h0 (ix2 p k)
  have hWP : ∀ p j, ∃ r : ℝ, 0 ≤ r ∧ WParr m c p j = r := fun p j => h1 (ix2 p j)
  have hW : ∀ cc k, ∃ r : ℝ, Warr m c cc k = r := fun cc k => h2 (ix2 cc k)
  have hB : ∀ cc, ∃ r : ℝ, Barr m c cc = r := fun cc => h3 (ix1 cc)
  have hM : ∀ n d, ∃ r : ℝ, MEMarr m c n d = r := fun n d => h4 (ix2 n d)
  exact ⟨fun p j => (wOutK_eq_wOut _ _ _ _ _ hX hWP hW hB hM p j).symm, fun p d => (rOutK_eq_rOut _ _ _ _ _ hX hWP hW hB hM p d).symm⟩

/-- From memories agreeing on the arguments both programs end with the weightings `Gw` and the read vectors `Gr` of the
    kernel's arguments: the kernel by its run read block by block, the reference by its run read operation by operation
    and the equality of the two spellings. -/
theorem algebraic : Cert.algebraic_KernelIdeal_ReferenceIdeal := by
  intro m ρ m' ρ' hpre hagree
  refine ⟨fun c => Gr m c, fun c => Gw m c, Cert.KernelIdeal.KerValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v86_eq, (hagree c).1, (hagree c).2.1, (hagree c).2.2.1, (hagree c).2.2.2.1, (hagree c).2.2.2.2]
    funext i
    obtain ⟨p, d, rfl⟩ : ∃ (p : Fin 1024) (d : Fin 64), i = ix2 p d := ⟨i 0, i 1, eq_ix2 i⟩
    rw [Cert.ReferenceIdeal.RefValue.ref_r]
    exact (spellings m hpre c).2 p d
  · rw [Cert.ReferenceIdeal.Read.val_main_v85_eq, (hagree c).1, (hagree c).2.1, (hagree c).2.2.1, (hagree c).2.2.2.1, (hagree c).2.2.2.2]
    funext i
    obtain ⟨p, j, rfl⟩ : ∃ (p : Fin 1024) (j : Fin 16384), i = ix2 p j := ⟨i 0, i 1, eq_ix2 i⟩
    rw [Cert.ReferenceIdeal.RefValue.ref_w]
    exact (spellings m hpre c).1 p j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
